-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S8192x1 : Shape := ⟨2, ![8192, 1]⟩
abbrev S512x8192 : Shape := ⟨2, ![512, 8192]⟩
abbrev S512x1 : Shape := ⟨2, ![512, 1]⟩
abbrev S512 : Shape := ⟨1, ![512]⟩
abbrev S1x8192 : Shape := ⟨2, ![1, 8192]⟩
abbrev S1024x2048 : Shape := ⟨2, ![1024, 2048]⟩
abbrev S1024x1 : Shape := ⟨2, ![1024, 1]⟩
abbrev S1x2048 : Shape := ⟨2, ![1, 2048]⟩

abbrev nBuf : Space → Nat
  | .hbm => 4
  | .vmem => 12
  | .smem => 0
  | _ => 0

abbrev bufTy : (tb : Table) → Fin (tcTables nBuf tb) → BufTy
  | .hbm, ⟨0, _⟩ => ⟨S8192x8192, .f32⟩
  | .hbm, ⟨1, _⟩ => ⟨S8192x1, .f32⟩
  | .hbm, ⟨2, _⟩ => ⟨S1x8192, .f32⟩
  | .hbm, ⟨3, _⟩ => ⟨S8192x8192, .f32⟩
  | .local _ .vmem, ⟨0, _⟩ => ⟨S512x8192, .f32⟩
  | .local _ .vmem, ⟨1, _⟩ => ⟨S512x8192, .f32⟩
  | .local _ .vmem, ⟨2, _⟩ => ⟨S512x1, .f32⟩
  | .local _ .vmem, ⟨3, _⟩ => ⟨S512x1, .f32⟩
  | .local _ .vmem, ⟨4, _⟩ => ⟨S1024x2048, .f32⟩
  | .local _ .vmem, ⟨5, _⟩ => ⟨S1024x2048, .f32⟩
  | .local _ .vmem, ⟨6, _⟩ => ⟨S1024x1, .f32⟩
  | .local _ .vmem, ⟨7, _⟩ => ⟨S1024x1, .f32⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S512x8192_S512x8192_0_0 : ∀ a, (![0, 0] : Fin 2 → Nat) a + S512x8192.size a ≤ S512x8192.size a
  h_S512x8192 : 0 < S512x8192.numel
  iota_S512x8192_d0_w32 : S512x8192.Iotas .tc 32 [0]
  iota_S512x8192_d1_w32 : S512x8192.Iotas .tc 32 [1]
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S8192x1_S1x8192 : S8192x1.ShapeCasts S1x8192
  inb_S1024x2048_S1024x2048_0_0 : ∀ a, (![0, 0] : Fin 2 → Nat) a + S1024x2048.size a ≤ S1024x2048.size a
  h_S1024x2048 : 0 < S1024x2048.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  iota_S1024x2048_d0_w32 : S1024x2048.Iotas .tc 32 [0]
  iota_S1024x2048_d1_w32 : S1024x2048.Iotas .tc 32 [1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x8192.size a
  hwx1_2 : ∀ i : grid1.Coords, EltTy.bits .f32 = 32 ∨ (Rect.block (s := S1x8192) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x8192.size a
  hwx1_3 : ∀ i : grid1.Coords, EltTy.bits .f32 = 32 ∨ (Rect.block (s := S8192x8192) S1024x2048.size (cc1_transform_3 i) (hinb1_3 i)).WholeWords (EltTy.packing .f32)

variable [Facts₀]

abbrev win0_0 : Pipeline.Window sig grid0 :=
  Pipeline.Window.ofSpec (Memref.whole main_arg0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S8192x2 : Shape := ⟨2, ![8192, 2]⟩
abbrev S1x8192 : Shape := ⟨2, ![1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S_, .f32⟩
  | .hbm, ⟨3, _⟩ => ⟨S8192, .f32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S8192x1, .i32⟩
  | .hbm, ⟨19, _⟩ => ⟨S8192x1, .i32⟩
  | .hbm, ⟨20, _⟩ => ⟨S8192x2, .i32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x1, .f32⟩
  | .hbm, ⟨26, _⟩ => ⟨S8192x8192, .f32⟩
  | .hbm, ⟨27, _⟩ => ⟨S8192x8192, .f32⟩
  | .hbm, ⟨28, _⟩ => ⟨S1x8192, .f32⟩
  | .hbm, ⟨29, _⟩ => ⟨S8192x8192, .f32⟩
  | .hbm, ⟨30, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x8192_S8192_d1 : S8192x8192.ReducesTo [1] S8192
  h_S_ : 0 < S_.numel
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  scatter_S8192x8192_S8192x2_S8192_n_01_01_1_wf : ScatterDims.WF S8192x8192 S8192x2 S8192 [] [0, 1] [0, 1] 1

variable [Facts₀]

def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf

class Facts : Prop extends Facts₀ where

variable [Facts]
-- ==== Proof.K.Data.lean ====
/-
  The two launches' data, stated at a PARAMETER `V`: the contents of the core's buffers when a launch is entered.

  First launch (row degrees). The grid has 16 points; point `i` sees rows `512 i … 512 i + 511` of the input, full
  width, and writes the 512 × 1 column of their inverse square-root degrees (`rowBlock`): one store of the body's one
  value over the input block.
  Second launch (normalisation). The grid is 8 × 4; point `(i, j)` sees the 1024 × 2048 tile of the input at block row `i`
  and block column `j`, the 1024 × 1 piece of the column of scales at block row `i` and the 1 × 2048 piece of the row of scales at
  block column `j`, and writes the tile of the result (`normBlock`). Every point stores the plain product; a point whose
  row range and column range overlap (`meetsDiag`) then stores again, the tile with its diagonal entries replaced.
  The later store is listed first.
  For each launch: a window's block of an array (`iblk`), and the record saying what each window's staging buffer holds
  after the body at each point (`dat`): an input's its block, the output's the value above.
-/
import proofs.«125021_j2216203125145_2_alg».proof.Proof.Gen.Kernel.Launch
import proofs.«125021_j2216203125145_2_alg».proof.Proof.Gen.Kernel.Skeleton
import proofs.«125021_j2216203125145_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## First launch: the row degrees -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 512 × 8192 input block and the whole 512 × 1 output block, as the body's load and store address them. -/
abbrev rIn0 : Rect S512x8192 := Rect.unit (s := S512x8192) ![0, 0] S512x8192.size inb_S512x8192_S512x8192_0_0
abbrev rOut0 : Rect S512x1 := Rect.unit (s := S512x1) ![0, 0] S512x1.size inb_S512x1_S512x1_0_0

/-- What the first body leaves in its output buffer at grid coordinates `i`, from the input block `x0`. -/
def rowBlock (i : grid0.Coords) (x0 : Vec F S512x8192 .f32) : Vec F S512x1 .f32 :=
  View.canon [⟨rOut0, k0_pay1 i (View.ld x0 rIn0)⟩]

/-- The first launch's record on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => rowBlock (grid0.coords t) (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = rowBlock (grid0.coords t) (iblk0 V c 0 t) := by dsimp only [dat0]

/-! ## Second launch: the normalisation -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole tile, the whole piece of the column of scales and the whole piece of the row of scales. -/
abbrev rTile1 : Rect S1024x2048 := Rect.unit (s := S1024x2048) ![0, 0] S1024x2048.size inb_S1024x2048_S1024x2048_0_0
abbrev rCol1 : Rect S1024x1 := Rect.unit (s := S1024x1) ![0, 0] S1024x1.size inb_S1024x1_S1024x1_0_0
abbrev rRow1 : Rect S1x2048 := Rect.unit (s := S1x2048) ![0, 0] S1x2048.size inb_S1x2048_S1x2048_0_0

/-- The body's test at grid coordinates `(i, j)`: rows `1024 i … 1024 i + 1023` and columns `2048 j … 2048 j + 2047` overlap,
    as the body computes it on 32-bit words. -/
def meetsDiag (i : grid1.Coords) : BitVec 1 :=
  let arg0 : BitVec 32 := BitVec.ofNat 32 (i 0).val
  let arg1 : BitVec 32 := BitVec.ofNat 32 (i 1).val
  let v10 : BitVec 32 := Scalar.muli arg0 1024#32
  let v11 : BitVec 32 := Scalar.muli arg1 2048#32
  let v12 : BitVec 32 := Scalar.addi v11 2048#32
  let v13 : BitVec 1 := Scalar.cmpi .slt v10 v12
  let v14 : BitVec 32 := Scalar.addi v10 1024#32
  let v15 : BitVec 1 := Scalar.cmpi .slt v11 v14
  let v16 : BitVec 1 := Scalar.andi v13 v15
  let v17 : BitVec 32 := Scalar.extui v16
  Scalar.cmpi .ne v17 0#32

/-- What the second body leaves in its output buffer at grid coordinates `i`, from the three input blocks. -/
def normBlock (i : grid1.Coords) (x0 : Vec F S1024x2048 .f32) (x1 : Vec F S1024x1 .f32) (x2 : Vec F S1x2048 .f32) : Vec F S1024x2048 .f32 :=
  if meetsDiag i = 1#1 then
    View.canon [⟨rTile1, k1_pay4 i (View.ld x0 rTile1) (View.ld x1 rCol1) (View.ld x2 rRow1)⟩,
      ⟨rTile1, k1_pay3 (View.ld x0 rTile1) (View.ld x1 rCol1) (View.ld x2 rRow1)⟩]
  else
    View.canon [⟨rTile1, k1_pay3 (View.ld x0 rTile1) (View.ld x1 rCol1) (View.ld x2 rRow1)⟩]

/-- The second launch's record on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => normBlock (grid1.coords t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = normBlock (grid1.coords t) (iblk1 V c 0 t) (iblk1 V c 1 t) (iblk1 V c 2 t) := by dsimp only [dat1]

end Cert.Kernel.Hand

end
-- ==== Proof.K.Run.lean ====
/-
  The program's run, launch by launch, with the contents of every buffer named at each boundary.

  The program is: the first launch (row degrees, writing the 8192 × 1 column), one host operation (the column
  re-laid as a 1 × 8192 row), the second launch (the normalisation, writing the result). The buffer contents at the
  four boundaries are a fold from the launch memory: `W0` the launch contents; `W1` the same with the first launch's
  arrays at what its write-backs leave; `W2` after the host operation; `W3` with the second launch's arrays at what its
  write-backs leave. Every weakly fair execution terminates with every unscoped buffer at `W3` (`run_all`), given that each
  launch's body meets its obligation at every grid point (the two hypotheses `hb0`, `hb1`, proved beside this module).
  The input array is an input window of both launches and written by no operation, so `W3` has it as launched
  (`W3_main_arg0`).
-/
import proofs.«125021_j2216203125145_2_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- The same read at the TensorCore's references: what the first launch is entered with. -/
abbrev V0 : (c : Dev nD) → (b : Ref sig .tc) → Buf (Elt F) ((c : Thread nD τ).loc b) := fun c b => W0 m ρ c b
/-- After the first launch: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operation (the column re-laid as a row): what the second launch is entered with. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second launch. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The host operation writes the row only. -/
theorem W2_of_ne_row (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- The input array ends as launched: an input window of both launches, written by no operation. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne_row m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-! ## The records' family and the state between segments -/

abbrev adm : (p : Fin 2) → (pcfgs (F := F) p).Adm := fun p => (cfgs p).toPCfg_adm
/-- Each launch's record at its entry contents, by a literal match on the launch. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The launches as segments -/

variable (hb0 : ∀ (V : (c : Dev nD) → (b : Ref sig .tc) → Buf (Elt F) ((c : Thread nD τ).loc b)) (c : Dev nD),
    BodyObligation (dat0 (F := F) V c) (defs₀ (F := F)) Variants.none () Set.univ)
  (hb1 : ∀ (V : (c : Dev nD) → (b : Ref sig .tc) → Buf (Elt F) ((c : Thread nD τ).loc b)) (c : Dev nD),
    BodyObligation (dat1 (F := F) V c) (defs₀ (F := F)) Variants.none () Set.univ)

set_option backward.isDefEq.respectTransparency.types false in
/-- The first launch: entered with every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch: entered with every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .region (reg0 m ρ hb0),
    .host (hseg hostOps1 hostOps1_sub hostOps1_fresh (W1 m ρ)),
    .region (reg1 m ρ hb1) ]
theorem main_run (c : Dev nD) : main (F := F) c = Pipeline.Seg.run (segs m ρ hb0 hb1) := (main_chain c).trans (by chain_rfl)

include hb0 hb1 in
set_option backward.isDefEq.respectTransparency.types false in
/-- Every weakly fair execution of the program from memory `m` terminates, nothing faulting, with every unscoped buffer
    of every core at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ hb0 hb1)
    (fun c Q => by rw [main_run m ρ hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.Kernel.Hand

end
-- ==== Proof.K.Body0.lean ====
/-
  The first launch's body at a point: the run of the row-degree body on the pipeline's staging buffers.

  At grid coordinates `i` the body reads the whole 512 × 8192 input block `x0`, reads its own 512 × 1 output buffer once
  (the value read is not used), and stores the column `k0_pay1 i x0` of inverse square-root degrees over the whole
  output buffer. So the input buffer is left as it was, and the output buffer holds `rowBlock i x0`: the one store
  covers the buffer, whatever it held before.
  From this: the input window's current staging buffer holds its block at every point (`before0_0`), and the
  pipeline's body obligation for the first launch's record `dat0` (`body_obligation0`).
-/
import proofs.«125021_j2216203125145_2_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input window's buffer before the body -/

/-- The input window's current staging buffer holds its block at every point, fetched there or not, for any record
    whose array is `V`'s (`hA`) and whose body leaves the block in place (`hafter`): the window is fetched whole at
    every point and is never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The first launch's record: the input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body's store covers its output buffer -/

/-- The one store is over the whole 512 × 1 buffer, so every index of the buffer lies in it. -/
theorem coverOut0 (p0 : Vec F S512x1 .f32) (y : S512x1.Idx) :
    ∃ pc ∈ ([⟨rOut0, p0⟩] : List (View.Piece (Elt F) S512x1 .f32)), y ∈ pc.1.set :=
  View.cover_of_tiled [⟨rOut0, p0⟩] S512x1.size (by rfl) y

/-! ## The body's triple -/

set_option maxHeartbeats 1000000 in
/-- The body at grid coordinates `i`, on whole staging memrefs, the input's at contents `x0` and the output's at
    anything: it runs to the continuation holding the input's as it was and the output's at `rowBlock i x0`. It loads the
    input block, loads the output buffer (the value is dropped), and stores `k0_pay1 i` of the input block over the whole
    output buffer; one store over a buffer it covers leaves exactly its payload there. -/
theorem sound_rowsum (c : Dev nD) (E : Set ℕ) (i : grid0.Coords) (arg1 : Memref sig .tc .vmem S512x8192 .f32) (harg1 : arg1.IsWhole)
    (arg2 : Memref sig .tc .vmem S512x1 .f32) (harg2 : arg2.IsWhole)
    (x0 : Vec F S512x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (rowBlock i x0)) -∗ K ⟨⟩))
      ⊢ wp frame (wpE (defs₀ (F := F)) Variants.none c none) E (cc0__rowsum_kernel i arg1 harg1 arg2 harg2) K := by
  simp only [cc0__rowsum_kernel_eq_skeleton]; unfold cc0__rowsum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (coverOut0 _)

/-! ## The body obligation, at a generic point -/

/-- What the body is called with at point `t`: the launch's invariant, what the core owes, and each window's current
    staging buffer, whole, at its contents before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What it returns: the same, each buffer at its contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block (`before0_0`), so `sound_rowsum` applies at the point's grid
    coordinates; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_rowsum c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation for the first launch, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  The second launch's body, run at a generic point of its 8 × 4 grid.

  The body loads the whole 1024 × 2048 tile of the input, the whole 1024 × 1 piece of the column of scales and the whole
  1 × 2048 piece of the row of scales; it loads the output tile (a value it does not use) and stores over the whole of it the
  product "tile × column scale × row scale". It then tests, on 32-bit words computed from the grid coordinates, whether the
  tile's row range and column range overlap (`meetsDiag`). If they do it loads the output tile again (unused) and stores over
  the whole of it a second time: the same product with the tile's diagonal entries replaced by one first. Otherwise it stores
  nothing more.

  So the output buffer ends at `normBlock`: by cases on the test, the canonical contents of the stores made, the later store
  first — each store is the whole tile, so the first piece of either list already covers the buffer. The three input buffers
  are read only, and each holds its window's block at every point whether or not the pipeline fetched it there (the column of
  scales is fetched only when the block row changes: at the other points its block index has not moved).
-/
import proofs.«125021_j2216203125145_2_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0 (the tile of the input) holds its block in its current staging buffer at every point, fetched there or not, for any
    record whose array is `V`'s (`hA`) and whose body leaves the block in place (`hafter`): where it is not fetched its block
    index has not moved since the point before. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the piece of the column of scales) holds its block in its current staging buffer at every point, fetched there or not, for any
    record whose array is `V`'s (`hA`) and whose body leaves the block in place (`hafter`): where it is not fetched its block
    index has not moved since the point before. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the piece of the row of scales) holds its block in its current staging buffer at every point, fetched there or not, for any
    record whose array is `V`'s (`hA`) and whose body leaves the block in place (`hafter`): where it is not fetched its block
    index has not moved since the point before. The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each input's current staging buffer holds its block at every point of the second launch, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's stores cover the output tile -/

/-- The whole-tile rectangle holds every index of the tile. -/
theorem mem_rTile1 (y : S1024x2048.Idx) : y ∈ (rTile1).set :=
  View.mem_set_unit_zero (S := S1024x2048) (funext fun a => by fin_cases a <;> rfl) inb_S1024x2048_S1024x2048_0_0 y

/-- Off the diagonal the body stores once, the whole tile: the one piece covers it. -/
theorem cover1_off (p0 : Vec F S1024x2048 .f32) (y : S1024x2048.Idx) :
    ∃ pc ∈ ([⟨rTile1, p0⟩] : List (View.Piece (Elt F) S1024x2048 .f32)), y ∈ pc.1.set :=
  ⟨_, List.mem_cons_self .., mem_rTile1 y⟩

/-- On the diagonal it stores the whole tile twice: the later piece (listed first) already covers it. -/
theorem cover1_diag (p1 p0 : Vec F S1024x2048 .f32) (y : S1024x2048.Idx) :
    ∃ pc ∈ ([⟨rTile1, p1⟩, ⟨rTile1, p0⟩] : List (View.Piece (Elt F) S1024x2048 .f32)), y ∈ pc.1.set :=
  ⟨_, List.mem_cons_self .., mem_rTile1 y⟩

/-! ## The body's triple -/

set_option maxHeartbeats 1000000 in
/-- The body at grid coordinates `i` on whole staging memrefs, the three inputs' at read contents `x0`, `x1`, `x2` and the
    output's at anything, runs to the continuation holding the inputs' as they were and the output's at
    `normBlock i x0 x1 x2`. By cases on the overlap test, decided before the run: where it holds the output is stored twice
    (the later store listed first), where it fails once; either list covers the tile, so what is read after the stores is
    the list's canonical contents whatever the buffer held before. -/
theorem sound_kernel1 (c : Dev nD) (E : Set ℕ) (i : grid1.Coords)
    (arg2 : Memref sig .tc .vmem S1024x2048 .f32) (harg2 : arg2.IsWhole)
    (arg3 : Memref sig .tc .vmem S1024x1 .f32) (harg3 : arg3.IsWhole)
    (arg4 : Memref sig .tc .vmem S1x2048 .f32) (harg4 : arg4.IsWhole)
    (arg5 : Memref sig .tc .vmem S1024x2048 .f32) (harg5 : arg5.IsWhole)
    (x0 : Vec F S1024x2048 .f32) (x1 : Vec F S1024x1 .f32) (x2 : Vec F S1x2048 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (normBlock i x0 x1 x2)) -∗ K ⟨⟩))
      ⊢ wp frame (wpE (defs₀ (F := F)) Variants.none c none) E
          (cc1__normalize_kernel i arg2 harg2 arg3 harg3 arg4 harg4 arg5 harg5) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%d3, %f3, -, H3⟩, Hk⟩
  subst hf0 hf1 hf2
  by_cases hc : meetsDiag i = 1#1
  · sl_exec (disch := exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists _; isplitr
    swap; · iexact H3
    ipureintro
    unfold normBlock; rw [if_pos hc]
    exact View.read_writes_eq_canon _ _ _ (cover1_diag _ _)
  · sl_exec (disch := exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists _; isplitr
    swap; · iexact H3
    ipureintro
    unfold normBlock; rw [if_neg hc]
    exact View.read_writes_eq_canon _ _ _ (cover1_off _)

/-! ## The body obligation, at a generic point -/

/-- What the body is called with at point `t`: the invariant, what the core owes, and each window's current staging buffer
    at what it holds before the body, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the same invariant and debt, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' memrefs hold their blocks (`before1_0`, `before1_1`, `before1_2`), the
    output's holds something, so `sound_kernel1` applies at the point's coordinates; the invariant and what the core owes
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the second launch, at every point: its four windows one by one. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KI.Data.lean ====
/-
  The two launches' data, stated at a PARAMETER `V`: the contents of the core's buffers when a launch is entered.

  First launch (row degrees). The grid has 16 points; point `i` sees rows `512 i … 512 i + 511` of the input, full
  width, and writes the 512 × 1 column of their inverse square-root degrees (`rowBlock`): one store of the body's one
  value over the input block.
  Second launch (normalisation). The grid is 8 × 4; point `(i, j)` sees the 1024 × 2048 tile of the input at block row `i`
  and block column `j`, the 1024 × 1 piece of the column of scales at block row `i` and the 1 × 2048 piece of the row of scales at
  block column `j`, and writes the tile of the result (`normBlock`). Every point stores the plain product; a point whose
  row range and column range overlap (`meetsDiag`) then stores again, the tile with its diagonal entries replaced.
  The later store is listed first.
  For each launch: a window's block of an array (`iblk`), and the record saying what each window's staging buffer holds
  after the body at each point (`dat`): an input's its block, the output's the value above.
-/
import proofs.«125021_j2216203125145_2_alg».proof.Proof.Gen.KernelIdeal.Launch
import proofs.«125021_j2216203125145_2_alg».proof.Proof.Gen.KernelIdeal.Skeleton
import proofs.«125021_j2216203125145_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## First launch: the row degrees -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 512 × 8192 input block and the whole 512 × 1 output block, as the body's load and store address them. -/
abbrev rIn0 : Rect S512x8192 := Rect.unit (s := S512x8192) ![0, 0] S512x8192.size inb_S512x8192_S512x8192_0_0
abbrev rOut0 : Rect S512x1 := Rect.unit (s := S512x1) ![0, 0] S512x1.size inb_S512x1_S512x1_0_0

/-- What the first body leaves in its output buffer at grid coordinates `i`, from the input block `x0`. -/
def rowBlock (i : grid0.Coords) (x0 : Vec F S512x8192 .f32) : Vec F S512x1 .f32 :=
  View.canon [⟨rOut0, k0_pay1 i (View.ld x0 rIn0)⟩]

/-- The first launch's record on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => rowBlock (grid0.coords t) (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = rowBlock (grid0.coords t) (iblk0 V c 0 t) := by dsimp only [dat0]

/-! ## Second launch: the normalisation -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole tile, the whole piece of the column of scales and the whole piece of the row of scales. -/
abbrev rTile1 : Rect S1024x2048 := Rect.unit (s := S1024x2048) ![0, 0] S1024x2048.size inb_S1024x2048_S1024x2048_0_0
abbrev rCol1 : Rect S1024x1 := Rect.unit (s := S1024x1) ![0, 0] S1024x1.size inb_S1024x1_S1024x1_0_0
abbrev rRow1 : Rect S1x2048 := Rect.unit (s := S1x2048) ![0, 0] S1x2048.size inb_S1x2048_S1x2048_0_0

/-- The body's test at grid coordinates `(i, j)`: rows `1024 i … 1024 i + 1023` and columns `2048 j … 2048 j + 2047` overlap,
    as the body computes it on 32-bit words. -/
def meetsDiag (i : grid1.Coords) : BitVec 1 :=
  let arg0 : BitVec 32 := BitVec.ofNat 32 (i 0).val
  let arg1 : BitVec 32 := BitVec.ofNat 32 (i 1).val
  let v10 : BitVec 32 := Scalar.muli arg0 1024#32
  let v11 : BitVec 32 := Scalar.muli arg1 2048#32
  let v12 : BitVec 32 := Scalar.addi v11 2048#32
  let v13 : BitVec 1 := Scalar.cmpi .slt v10 v12
  let v14 : BitVec 32 := Scalar.addi v10 1024#32
  let v15 : BitVec 1 := Scalar.cmpi .slt v11 v14
  let v16 : BitVec 1 := Scalar.andi v13 v15
  let v17 : BitVec 32 := Scalar.extui v16
  Scalar.cmpi .ne v17 0#32

/-- What the second body leaves in its output buffer at grid coordinates `i`, from the three input blocks. -/
def normBlock (i : grid1.Coords) (x0 : Vec F S1024x2048 .f32) (x1 : Vec F S1024x1 .f32) (x2 : Vec F S1x2048 .f32) : Vec F S1024x2048 .f32 :=
  if meetsDiag i = 1#1 then
    View.canon [⟨rTile1, k1_pay4 i (View.ld x0 rTile1) (View.ld x1 rCol1) (View.ld x2 rRow1)⟩,
      ⟨rTile1, k1_pay3 (View.ld x0 rTile1) (View.ld x1 rCol1) (View.ld x2 rRow1)⟩]
  else
    View.canon [⟨rTile1, k1_pay3 (View.ld x0 rTile1) (View.ld x1 rCol1) (View.ld x2 rRow1)⟩]

/-- The second launch's record on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => normBlock (grid1.coords t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = normBlock (grid1.coords t) (iblk1 V c 0 t) (iblk1 V c 1 t) (iblk1 V c 2 t) := by dsimp only [dat1]

end Cert.KernelIdeal.Hand

end
-- ==== Proof.KI.Run.lean ====
/-
  The program's run, launch by launch, with the contents of every buffer named at each boundary.

  The program is: the first launch (row degrees, writing the 8192 × 1 column), one host operation (the column
  re-laid as a 1 × 8192 row), the second launch (the normalisation, writing the result). The buffer contents at the
  four boundaries are a fold from the launch memory: `W0` the launch contents; `W1` the same with the first launch's
  arrays at what its write-backs leave; `W2` after the host operation; `W3` with the second launch's arrays at what its
  write-backs leave. Every weakly fair execution terminates with every unscoped buffer at `W3` (`run_all`), given that each
  launch's body meets its obligation at every grid point (the two hypotheses `hb0`, `hb1`, proved beside this module).
  The input array is an input window of both launches and written by no operation, so `W3` has it as launched
  (`W3_main_arg0`).
-/
import proofs.«125021_j2216203125145_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- The same read at the TensorCore's references: what the first launch is entered with. -/
abbrev V0 : (c : Dev nD) → (b : Ref sig .tc) → Buf (Elt F) ((c : Thread nD τ).loc b) := fun c b => W0 m ρ c b
/-- After the first launch: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operation (the column re-laid as a row): what the second launch is entered with. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second launch. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The host operation writes the row only. -/
theorem W2_of_ne_row (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- The input array ends as launched: an input window of both launches, written by no operation. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne_row m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-! ## The records' family and the state between segments -/

abbrev adm : (p : Fin 2) → (pcfgs (F := F) p).Adm := fun p => (cfgs p).toPCfg_adm
/-- Each launch's record at its entry contents, by a literal match on the launch. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The launches as segments -/

variable (hb0 : ∀ (V : (c : Dev nD) → (b : Ref sig .tc) → Buf (Elt F) ((c : Thread nD τ).loc b)) (c : Dev nD),
    BodyObligation (dat0 (F := F) V c) (defs₀ (F := F)) Variants.none () Set.univ)
  (hb1 : ∀ (V : (c : Dev nD) → (b : Ref sig .tc) → Buf (Elt F) ((c : Thread nD τ).loc b)) (c : Dev nD),
    BodyObligation (dat1 (F := F) V c) (defs₀ (F := F)) Variants.none () Set.univ)

set_option backward.isDefEq.respectTransparency.types false in
/-- The first launch: entered with every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch: entered with every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .region (reg0 m ρ hb0),
    .host (hseg hostOps1 hostOps1_sub hostOps1_fresh (W1 m ρ)),
    .region (reg1 m ρ hb1) ]
theorem main_run (c : Dev nD) : main (F := F) c = Pipeline.Seg.run (segs m ρ hb0 hb1) := (main_chain c).trans (by chain_rfl)

include hb0 hb1 in
set_option backward.isDefEq.respectTransparency.types false in
/-- Every weakly fair execution of the program from memory `m` terminates, nothing faulting, with every unscoped buffer
    of every core at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ hb0 hb1)
    (fun c Q => by rw [main_run m ρ hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.KernelIdeal.Hand

end
-- ==== Proof.KI.Body0.lean ====
/-
  The first launch's body at a point: the run of the row-degree body on the pipeline's staging buffers.

  At grid coordinates `i` the body reads the whole 512 × 8192 input block `x0`, reads its own 512 × 1 output buffer once
  (the value read is not used), and stores the column `k0_pay1 i x0` of inverse square-root degrees over the whole
  output buffer. So the input buffer is left as it was, and the output buffer holds `rowBlock i x0`: the one store
  covers the buffer, whatever it held before.
  From this: the input window's current staging buffer holds its block at every point (`before0_0`), and the
  pipeline's body obligation for the first launch's record `dat0` (`body_obligation0`).
-/
import proofs.«125021_j2216203125145_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input window's buffer before the body -/

/-- The input window's current staging buffer holds its block at every point, fetched there or not, for any record
    whose array is `V`'s (`hA`) and whose body leaves the block in place (`hafter`): the window is fetched whole at
    every point and is never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The first launch's record: the input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body's store covers its output buffer -/

/-- The one store is over the whole 512 × 1 buffer, so every index of the buffer lies in it. -/
theorem coverOut0 (p0 : Vec F S512x1 .f32) (y : S512x1.Idx) :
    ∃ pc ∈ ([⟨rOut0, p0⟩] : List (View.Piece (Elt F) S512x1 .f32)), y ∈ pc.1.set :=
  View.cover_of_tiled [⟨rOut0, p0⟩] S512x1.size (by rfl) y

/-! ## The body's triple -/

set_option maxHeartbeats 1000000 in
/-- The body at grid coordinates `i`, on whole staging memrefs, the input's at contents `x0` and the output's at
    anything: it runs to the continuation holding the input's as it was and the output's at `rowBlock i x0`. It loads the
    input block, loads the output buffer (the value is dropped), and stores `k0_pay1 i` of the input block over the whole
    output buffer; one store over a buffer it covers leaves exactly its payload there. -/
theorem sound_rowsum (c : Dev nD) (E : Set ℕ) (i : grid0.Coords) (arg1 : Memref sig .tc .vmem S512x8192 .f32) (harg1 : arg1.IsWhole)
    (arg2 : Memref sig .tc .vmem S512x1 .f32) (harg2 : arg2.IsWhole)
    (x0 : Vec F S512x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (rowBlock i x0)) -∗ K ⟨⟩))
      ⊢ wp frame (wpE (defs₀ (F := F)) Variants.none c none) E (cc0__rowsum_kernel i arg1 harg1 arg2 harg2) K := by
  simp only [cc0__rowsum_kernel_eq_skeleton]; unfold cc0__rowsum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (coverOut0 _)

/-! ## The body obligation, at a generic point -/

/-- What the body is called with at point `t`: the launch's invariant, what the core owes, and each window's current
    staging buffer, whole, at its contents before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What it returns: the same, each buffer at its contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block (`before0_0`), so `sound_rowsum` applies at the point's grid
    coordinates; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_rowsum c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation for the first launch, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The second launch's body, run at a generic point of its 8 × 4 grid.

  The body loads the whole 1024 × 2048 tile of the input, the whole 1024 × 1 piece of the column of scales and the whole
  1 × 2048 piece of the row of scales; it loads the output tile (a value it does not use) and stores over the whole of it the
  product "tile × column scale × row scale". It then tests, on 32-bit words computed from the grid coordinates, whether the
  tile's row range and column range overlap (`meetsDiag`). If they do it loads the output tile again (unused) and stores over
  the whole of it a second time: the same product with the tile's diagonal entries replaced by one first. Otherwise it stores
  nothing more.

  So the output buffer ends at `normBlock`: by cases on the test, the canonical contents of the stores made, the later store
  first — each store is the whole tile, so the first piece of either list already covers the buffer. The three input buffers
  are read only, and each holds its window's block at every point whether or not the pipeline fetched it there (the column of
  scales is fetched only when the block row changes: at the other points its block index has not moved).
-/
import proofs.«125021_j2216203125145_2_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0 (the tile of the input) holds its block in its current staging buffer at every point, fetched there or not, for any
    record whose array is `V`'s (`hA`) and whose body leaves the block in place (`hafter`): where it is not fetched its block
    index has not moved since the point before. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the piece of the column of scales) holds its block in its current staging buffer at every point, fetched there or not, for any
    record whose array is `V`'s (`hA`) and whose body leaves the block in place (`hafter`): where it is not fetched its block
    index has not moved since the point before. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the piece of the row of scales) holds its block in its current staging buffer at every point, fetched there or not, for any
    record whose array is `V`'s (`hA`) and whose body leaves the block in place (`hafter`): where it is not fetched its block
    index has not moved since the point before. The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each input's current staging buffer holds its block at every point of the second launch, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's stores cover the output tile -/

/-- The whole-tile rectangle holds every index of the tile. -/
theorem mem_rTile1 (y : S1024x2048.Idx) : y ∈ (rTile1).set :=
  View.mem_set_unit_zero (S := S1024x2048) (funext fun a => by fin_cases a <;> rfl) inb_S1024x2048_S1024x2048_0_0 y

/-- Off the diagonal the body stores once, the whole tile: the one piece covers it. -/
theorem cover1_off (p0 : Vec F S1024x2048 .f32) (y : S1024x2048.Idx) :
    ∃ pc ∈ ([⟨rTile1, p0⟩] : List (View.Piece (Elt F) S1024x2048 .f32)), y ∈ pc.1.set :=
  ⟨_, List.mem_cons_self .., mem_rTile1 y⟩

/-- On the diagonal it stores the whole tile twice: the later piece (listed first) already covers it. -/
theorem cover1_diag (p1 p0 : Vec F S1024x2048 .f32) (y : S1024x2048.Idx) :
    ∃ pc ∈ ([⟨rTile1, p1⟩, ⟨rTile1, p0⟩] : List (View.Piece (Elt F) S1024x2048 .f32)), y ∈ pc.1.set :=
  ⟨_, List.mem_cons_self .., mem_rTile1 y⟩

/-! ## The body's triple -/

set_option maxHeartbeats 1000000 in
/-- The body at grid coordinates `i` on whole staging memrefs, the three inputs' at read contents `x0`, `x1`, `x2` and the
    output's at anything, runs to the continuation holding the inputs' as they were and the output's at
    `normBlock i x0 x1 x2`. By cases on the overlap test, decided before the run: where it holds the output is stored twice
    (the later store listed first), where it fails once; either list covers the tile, so what is read after the stores is
    the list's canonical contents whatever the buffer held before. -/
theorem sound_kernel1 (c : Dev nD) (E : Set ℕ) (i : grid1.Coords)
    (arg2 : Memref sig .tc .vmem S1024x2048 .f32) (harg2 : arg2.IsWhole)
    (arg3 : Memref sig .tc .vmem S1024x1 .f32) (harg3 : arg3.IsWhole)
    (arg4 : Memref sig .tc .vmem S1x2048 .f32) (harg4 : arg4.IsWhole)
    (arg5 : Memref sig .tc .vmem S1024x2048 .f32) (harg5 : arg5.IsWhole)
    (x0 : Vec F S1024x2048 .f32) (x1 : Vec F S1024x1 .f32) (x2 : Vec F S1x2048 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (normBlock i x0 x1 x2)) -∗ K ⟨⟩))
      ⊢ wp frame (wpE (defs₀ (F := F)) Variants.none c none) E
          (cc1__normalize_kernel i arg2 harg2 arg3 harg3 arg4 harg4 arg5 harg5) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%d3, %f3, -, H3⟩, Hk⟩
  subst hf0 hf1 hf2
  by_cases hc : meetsDiag i = 1#1
  · sl_exec (disch := exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists _; isplitr
    swap; · iexact H3
    ipureintro
    unfold normBlock; rw [if_pos hc]
    exact View.read_writes_eq_canon _ _ _ (cover1_diag _ _)
  · sl_exec (disch := exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists _; isplitr
    swap; · iexact H3
    ipureintro
    unfold normBlock; rw [if_neg hc]
    exact View.read_writes_eq_canon _ _ _ (cover1_off _)

/-! ## The body obligation, at a generic point -/

/-- What the body is called with at point `t`: the invariant, what the core owes, and each window's current staging buffer
    at what it holds before the body, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the same invariant and debt, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' memrefs hold their blocks (`before1_0`, `before1_1`, `before1_2`), the
    output's holds something, so `sound_kernel1` applies at the point's coordinates; the invariant and what the core owes
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the second launch, at every point: its four windows one by one. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Words.lean ====
/-
  Word arithmetic of the two bodies' masks and of the second body's test, read as facts about natural numbers.

  Both bodies build a mask of 32-bit words "global row = global column" from the grid coordinates and the positions inside
  the block: the first, at block row `i`, compares `512 i + p` with `q`; the second, at block `(i, j)`, compares
  `1024 i + p` with `2048 j + q`. All the numbers involved are far below `2 ^ 31` (at most `8192`), so no product or sum
  wraps, a signed comparison is the comparison of the numbers, and each mask bit is `1` exactly when the two natural
  numbers are equal (`mask0_apply`, `mask1_apply`). The second body's test `meetsDiag` is `1` exactly when the block's row
  range and column range overlap (`meets_iff`); when they do not, no element of the block is on the diagonal
  (`off_diag_of_not_meets`).
-/
import proofs.«125021_j2216203125145_2_alg».proof.Proof.KI.Data
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

/-! ## Words -/

/-- The one-bit word of a truth value is `1` exactly when the value is true. -/
theorem ofBool_eq_one_iff (b : Bool) : BitVec.ofBool b = 1#1 ↔ b = true := by cases b <;> decide

/-- An equality comparison of two words answers `1` exactly when they are equal. -/
theorem cmpi_eq_one_iff (x y : BitVec 32) : IntOp.cmpi .eq x y = 1#1 ↔ x = y := by
  show BitVec.ofBool (x == y) = 1#1 ↔ _
  rw [ofBool_eq_one_iff, beq_iff_eq]

/-- A signed comparison of two words below `2 ^ 31` answers `1` exactly when the first number is the smaller. -/
theorem cmpi_slt_one_iff (x y : BitVec 32) (hx : x.toNat < 2 ^ 31) (hy : y.toNat < 2 ^ 31) :
    Scalar.cmpi .slt x y = 1#1 ↔ x.toNat < y.toNat := by
  show BitVec.ofBool (x.slt y) = 1#1 ↔ _
  rw [ofBool_eq_one_iff, BitVec.slt_eq_decide, decide_eq_true_iff,
    BitVec.toInt_eq_toNat_of_lt (by omega), BitVec.toInt_eq_toNat_of_lt (by omega)]
  omega

/-- The conjunction of two one-bit words, widened and compared against zero, answers `1` exactly when both are `1`. -/
theorem and_ne_zero_one_iff (x y : BitVec 1) :
    Scalar.cmpi .ne (Scalar.extui (Scalar.andi x y)) 0#32 = 1#1 ↔ (x = 1#1 ∧ y = 1#1) := by
  rcases BitVec.eq_zero_or_eq_one x with rfl | rfl <;> rcases BitVec.eq_zero_or_eq_one y with rfl | rfl <;> decide

/-- A product of small numbers as words: `k a` below `2 ^ 32` is not wrapped. -/
theorem toNat_mul_small (a k : ℕ) (ha : a < 2 ^ 32) (hk : k < 2 ^ 32) (h : k * a < 2 ^ 32) :
    (BitVec.ofNat 32 a * BitVec.ofNat 32 k).toNat = k * a := by
  rw [BitVec.toNat_mul, BitVec.toNat_ofNat, BitVec.toNat_ofNat, Nat.mod_eq_of_lt ha, Nat.mod_eq_of_lt hk, Nat.mul_comm a k,
    Nat.mod_eq_of_lt h]

/-- A product and a sum of small numbers as words: `k a + c` below `2 ^ 32` is not wrapped. -/
theorem toNat_mul_add (a k c : ℕ) (ha : a < 2 ^ 32) (hk : k < 2 ^ 32) (h : k * a + c < 2 ^ 32) :
    (BitVec.ofNat 32 a * BitVec.ofNat 32 k + BitVec.ofNat 32 c).toNat = k * a + c := by
  rw [BitVec.toNat_add, toNat_mul_small a k ha hk (by omega), BitVec.toNat_ofNat,
    Nat.mod_eq_of_lt (show c < 2 ^ 32 by omega), Nat.mod_eq_of_lt h]

/-! ## The first body's mask -/

/-- The first body's mask at block row `i`, read at position `(p, q)` of the block: its bit is `1` exactly when the
    global row `512 i + p` is the column `q`. -/
theorem mask0_apply (i : grid0.Coords) (h0 : S512x8192.Iotas .tc 32 [0]) (h1 : S512x8192.Iotas .tc 32 [1]) (p : Fin 512) (q : Fin 8192) :
    (cmpi .eq (addi (broadcast S512x8192 (Scalar.muli (BitVec.ofNat 32 (i 0).val) 512#32)) (iota .tc S512x8192 32 [0] h0)) (iota .tc S512x8192 32 [1] h1) : IVec S512x8192 1) (ix2 p q) = 1#1 ↔ 512 * (i 0).val + p.val = q.val := by
  have hi : (i 0).val < 16 := (i 0).isLt
  have hp : p.val < 512 := p.isLt
  have hq : q.val < 8192 := q.isLt
  show IntOp.cmpi .eq (BitVec.ofNat 32 (i 0).val * BitVec.ofNat 32 512 + iota .tc S512x8192 32 [0] h0 (ix2 p q)) (iota .tc S512x8192 32 [1] h1 (ix2 p q)) = 1#1 ↔ _
  rw [iota_single_apply, iota_single_apply, cmpi_eq_one_iff, ← BitVec.toNat_inj]
  show (BitVec.ofNat 32 (i 0).val * BitVec.ofNat 32 512 + BitVec.ofNat 32 p.val).toNat = (BitVec.ofNat 32 q.val).toNat ↔ _
  rw [toNat_mul_add _ _ _ (by omega) (by omega) (by omega), BitVec.toNat_ofNat, Nat.mod_eq_of_lt (show q.val < 2 ^ 32 by omega)]

/-! ## The second body's mask and test -/

/-- The second body's mask at block `(i, j)`, read at position `(p, q)` of the tile: its bit is `1` exactly when the
    global row `1024 i + p` is the global column `2048 j + q`. -/
theorem mask1_apply (i : grid1.Coords) (h0 : S1024x2048.Iotas .tc 32 [0]) (h1 : S1024x2048.Iotas .tc 32 [1]) (p : Fin 1024) (q : Fin 2048) :
    (cmpi .eq (addi (broadcast S1024x2048 (Scalar.muli (BitVec.ofNat 32 (i 0).val) 1024#32)) (iota .tc S1024x2048 32 [0] h0)) (addi (broadcast S1024x2048 (Scalar.muli (BitVec.ofNat 32 (i 1).val) 2048#32)) (iota .tc S1024x2048 32 [1] h1)) : IVec S1024x2048 1) (ix2 p q) = 1#1 ↔ 1024 * (i 0).val + p.val = 2048 * (i 1).val + q.val := by
  have hi : (i 0).val < 8 := (i 0).isLt
  have hj : (i 1).val < 4 := (i 1).isLt
  have hp : p.val < 1024 := p.isLt
  have hq : q.val < 2048 := q.isLt
  show IntOp.cmpi .eq (BitVec.ofNat 32 (i 0).val * BitVec.ofNat 32 1024 + iota .tc S1024x2048 32 [0] h0 (ix2 p q))
    (BitVec.ofNat 32 (i 1).val * BitVec.ofNat 32 2048 + iota .tc S1024x2048 32 [1] h1 (ix2 p q)) = 1#1 ↔ _
  rw [iota_single_apply, iota_single_apply, cmpi_eq_one_iff, ← BitVec.toNat_inj]
  show (BitVec.ofNat 32 (i 0).val * BitVec.ofNat 32 1024 + BitVec.ofNat 32 p.val).toNat
    = (BitVec.ofNat 32 (i 1).val * BitVec.ofNat 32 2048 + BitVec.ofNat 32 q.val).toNat ↔ _
  rw [toNat_mul_add _ _ _ (by omega) (by omega) (by omega), toNat_mul_add _ _ _ (by omega) (by omega) (by omega)]

/-- The second body's test on words, at natural numbers `a < 8` and `b < 4` for the block coordinates. -/
theorem meets_word (a b : ℕ) (ha : a < 8) (hb : b < 4) :
    Scalar.cmpi .ne (Scalar.extui (Scalar.andi
        (Scalar.cmpi .slt (Scalar.muli (BitVec.ofNat 32 a) 1024#32) (Scalar.addi (Scalar.muli (BitVec.ofNat 32 b) 2048#32) 2048#32))
        (Scalar.cmpi .slt (Scalar.muli (BitVec.ofNat 32 b) 2048#32) (Scalar.addi (Scalar.muli (BitVec.ofNat 32 a) 1024#32) 1024#32)))) 0#32 = 1#1
      ↔ (1024 * a < 2048 * b + 2048 ∧ 2048 * b < 1024 * a + 1024) := by
  have e10 : (Scalar.muli (BitVec.ofNat 32 a) 1024#32).toNat = 1024 * a :=
    toNat_mul_small a 1024 (by omega) (by omega) (by omega)
  have e11 : (Scalar.muli (BitVec.ofNat 32 b) 2048#32).toNat = 2048 * b :=
    toNat_mul_small b 2048 (by omega) (by omega) (by omega)
  have e12 : (Scalar.addi (Scalar.muli (BitVec.ofNat 32 b) 2048#32) 2048#32).toNat = 2048 * b + 2048 :=
    toNat_mul_add b 2048 2048 (by omega) (by omega) (by omega)
  have e14 : (Scalar.addi (Scalar.muli (BitVec.ofNat 32 a) 1024#32) 1024#32).toNat = 1024 * a + 1024 :=
    toNat_mul_add a 1024 1024 (by omega) (by omega) (by omega)
  rw [and_ne_zero_one_iff, cmpi_slt_one_iff _ _ (by omega) (by omega), cmpi_slt_one_iff _ _ (by omega) (by omega),
    e10, e11, e12, e14]

/-- The second body's test at block `(i, j)` is `1` exactly when rows `1024 i … 1024 i + 1023` and columns
    `2048 j … 2048 j + 2047` overlap. -/
theorem meets_iff (i : grid1.Coords) :
    meetsDiag i = 1#1 ↔ (1024 * (i 0).val < 2048 * (i 1).val + 2048 ∧ 2048 * (i 1).val < 1024 * (i 0).val + 1024) :=
  meets_word (i 0).val (i 1).val (i 0).isLt (i 1).isLt

/-- Where the test fails the block has no diagonal element: no global row of the block is a global column of it. -/
theorem off_diag_of_not_meets (i : grid1.Coords) (h : ¬ meetsDiag i = 1#1) (p : Fin 1024) (q : Fin 2048) :
    1024 * (i 0).val + p.val ≠ 2048 * (i 1).val + q.val := by
  have hp : p.val < 1024 := p.isLt
  have hq : q.val < 2048 := q.isLt
  rw [meets_iff] at h
  omega

end Cert.KernelIdeal.Hand

end
-- ==== Proof.KI.Pay0.lean ====
/-
  The first launch's output block, read at one position.

  At grid coordinate `i` the body sees rows `512 i … 512 i + 511` of the input, full width, as the block `x0`, and stores
  one 512 × 1 column over its whole output block. So the block it leaves is the stored value itself
  (`rowBlock_eq_pay`), and at row `p` of the block that value is the inverse square root of
    (the sum of row `p` of `x0`)  +  (1  −  the sum of row `p` masked to the column `q` with `512 i + p = q`),
  the mask being the body's comparison of the global row number with the column number (`rowBlock_apply`).

  The steps: a lane sum over the columns read at a row is the sum over the column coordinate (`rowSum_at`: the reduction
  keeps the row axis, and the reshape of the 512 results into a 512 × 1 column keeps the row, `colOfVec_apply`); the masked
  row is the row where the mask bit is `1` and the zero word, which is the number `0`, elsewhere; the subtraction, the
  addition and the inverse square root act position by position.
-/
import proofs.«125021_j2216203125145_2_alg».proof.Proof.KI.Data
import proofs.«125021_j2216203125145_2_alg».proof.Proof.KI.Words
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

/-- The offsets of a whole-block access are zero on both axes. -/
theorem rowBlock_hz : (![0, 0] : Fin 2 → Nat) = fun _ => 0 := funext fun a => by fin_cases a <;> rfl

/-- One store over the whole output block leaves the stored value, and the load of the whole input block reads the
    block: what the first body leaves is its one value of the input block. -/
theorem rowBlock_eq_pay {F : FTy → Type} [FloatOps F] (i : grid0.Coords) (x0 : Vec F S512x8192 .f32) :
    rowBlock i x0 = k0_pay1 i x0 := by
  unfold rowBlock
  rw [View.canon_unit_zero rowBlock_hz, View.ld_unit_zero (S := S512x8192) rowBlock_hz]

/-- A vector of `a` entries reshaped into an `a × 1` column reads, at row `p`, entry `p`: both sit at row-major
    position `p`. -/
theorem colOfVec_apply {α : Type} {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) :=
  shapeCast_apply v h _ _ (by
    have hz : z.val = 0 := by omega
    rw [Shape.rowMajor_val_two, Shape.rowMajor_val_one]
    show p.val = p.val * 1 + z.val
    rw [hz, Nat.mul_one, Nat.add_zero])

/-- The position of the 512 × 8192 block that a reduction over the columns visits for result row `p` and column
    coordinate `q` is `(p, q)`. -/
theorem rowLift_eq (h : S512x8192.Reduces [1] S512) (p : Fin 512) (q : Fin 8192) : h.lift (ix1 p) q = ix2 p q := by
  funext c
  apply Fin.ext
  match c with
  | ⟨0, _⟩ => rfl
  | ⟨1, _⟩ => rfl

/-- The lane sum of a 512 × 8192 block over its columns, as a 512 × 1 column, read at row `p`: the sum of row `p`. -/
theorem rowSum_at (src : FVec Ideal S512x8192 .f32) (h : S512x8192.Reduces [1] S512) (hφ : FKind.Formats .f32)
    (hacc : (0x00000000#32 : BitVec 32) = 0x00000000#32) (hc : S512.ShapeCasts S512x1) (p : Fin 512) (z : Fin 1) :
    shapeCast S512x1 (multiReduction .add [1] S512 src 0x00000000#32 h hφ hacc) hc (ix2 p z)
      = ∑ q : Fin 8192, src (ix2 p q) :=
  (colOfVec_apply _ hc p z).trans
    ((Ideal.multiReduction_add_single src 0x00000000#32 h hφ hacc (ix1 p)).trans
      (Finset.sum_congr rfl fun q _ => congrArg src (rowLift_eq h p q)))

/-- The first body's value at row `p` of its 512 × 1 column, over the extended reals: the inverse square root of the
    row's sum plus one minus the row's sum masked to the column whose number is the row's global number `512 i + p`. -/
theorem k0_pay1_apply (i : grid0.Coords) (x0 : Vec Ideal S512x8192 .f32) (p : Fin 512) (z : Fin 1) :
    k0_pay1 (F := Ideal) i x0 (ix2 p z)
      = Ideal.rsqrt ((∑ q : Fin 8192, x0 (ix2 p q))
          + (Ideal.ofBits .f32 0x3F800000#32
              - ∑ q : Fin 8192, (if 512 * (i 0).val + p.val = q.val then x0 (ix2 p q) else 0))) := by
  unfold k0_pay1
  refine congrArg Ideal.rsqrt ?_
  refine congrArg₂ (· + ·) (rowSum_at x0 _ _ _ _ p z) ?_
  refine congrArg (fun d => Ideal.ofBits .f32 0x3F800000#32 - d) ?_
  refine (rowSum_at _ _ _ _ _ p z).trans (Finset.sum_congr rfl fun q _ => ?_)
  refine (select_apply _ _ _ _).trans ?_
  unfold Scalar.select
  exact if_congr (mask0_apply i iota_S512x8192_d0_w32 iota_S512x8192_d1_w32 p q) rfl Ideal.ofBits_zero_f32

/-- What the first launch's body leaves at row `p` of its output block, from the input block `x0` at grid coordinate `i`. -/
theorem rowBlock_apply (i : grid0.Coords) (x0 : Vec Ideal S512x8192 .f32) (p : Fin 512) (z : Fin 1) :
    rowBlock (F := Ideal) i x0 (ix2 p z) = Ideal.rsqrt ((∑ q : Fin 8192, x0 (ix2 p q)) + (Ideal.ofBits .f32 0x3F800000#32 - ∑ q : Fin 8192, (if 512 * (i 0).val + p.val = q.val then x0 (ix2 p q) else 0))) := by
  rw [rowBlock_eq_pay]
  exact k0_pay1_apply i x0 p z

end Cert.KernelIdeal.Hand

end
-- ==== Proof.Spec.lean ====
/-
  The function both programs compute, stated once over the whole 8192 × 8192 array and with no
  program in sight.

  Let `a` be the input matrix and `one` the unit entry put on the diagonal (the self-loop).
  * `fixedAt one a r c` is the matrix with its diagonal replaced: `one` when `r = c`, else `a r c`.
  * `deg one a r` is row `r`'s degree, the sum over the columns of the fixed matrix.
  * `G one a` is the symmetric normalisation: entry `(r, c)` of the fixed matrix times
    `(deg r)^(-1/2)` times `(deg c)^(-1/2)`, multiplied in that order.
  The kernel reaches the degree another way: it sums the untouched row, and adds `one` minus the sum of
  the row masked to its diagonal entry (`degK`). On finite entries the two agree (`degK_eq`): the
  masked sum is the diagonal entry itself, and removing it from the row sum and adding `one` is the sum
  of the row with that entry replaced. The step cancels a term, so it needs the entries to be real numbers.
-/
import Idealize.ShloMosaic.PureOps.Ideal
import Idealize.ShloMosaic.Lib.ValueIdx

noncomputable section

namespace Cert.SelfLoop

open Idealize.ShloMosaic Idealize.ShloMosaic.ValueIdx

/-- A real-or-infinite matrix of the problem's size. -/
abbrev Mat : Type := (⟨2, ![8192, 8192]⟩ : Shape).Idx → EReal

/-- The matrix with its diagonal replaced by `one`. -/
def fixedAt (one : EReal) (a : Mat) (r c : Fin 8192) : EReal := if r = c then one else a (ix2 r c)

/-- Row `r`'s degree: the sum of the fixed matrix along the row. -/
def deg (one : EReal) (a : Mat) (r : Fin 8192) : EReal := ∑ c : Fin 8192, fixedAt one a r c

/-- The degree as the kernel forms it: the plain row sum, plus `one` minus the row's diagonal entry, the latter
    written as the sum of the row masked to the diagonal. -/
def degK (one : EReal) (a : Mat) (r : Fin 8192) : EReal :=
  (∑ c : Fin 8192, a (ix2 r c)) + (one - ∑ c : Fin 8192, (if r = c then a (ix2 r c) else 0))

/-- The normalised entry at row `r`, column `c`. -/
def entry (one : EReal) (a : Mat) (r c : Fin 8192) : EReal :=
  fixedAt one a r c * Ideal.rsqrt (deg one a r) * Ideal.rsqrt (deg one a c)

/-- The symmetric normalisation of the self-loop-fixed matrix, as one function of the whole array. -/
def G (one : EReal) (a : Mat) : Mat := fun j => entry one a ⟨(j 0).val, idx2_lt0 j⟩ ⟨(j 1).val, idx2_lt1 j⟩

theorem G_ix2 (one : EReal) (a : Mat) (r c : Fin 8192) : G one a (ix2 r c) = entry one a r c := rfl

end Cert.SelfLoop

end
-- ==== Proof.Spec2.lean ====
/-
  The two intermediate arrays of the kernel's road, each as one function of whole arrays.
  * `degCol one a`: the 8192 × 1 column the first launch leaves: at row `r` the inverse square root of the degree as the
    kernel forms it (`degK`).
  * `normOf one a dc dr`: the 8192 × 8192 array the second launch leaves, given the column of scales `dc` and the row of scales
    `dr` it is handed: at `(r, c)` the self-loop-fixed entry times `dc r` times `dr c`, in that order.
-/
import proofs.«125021_j2216203125145_2_alg».proof.Proof.Spec

noncomputable section

namespace Cert.SelfLoop

open Idealize.ShloMosaic Idealize.ShloMosaic.ValueIdx

/-- An 8192 × 1 column and a 1 × 8192 row of extended reals. -/
abbrev Col : Type := (⟨2, ![8192, 1]⟩ : Shape).Idx → EReal
abbrev Row : Type := (⟨2, ![1, 8192]⟩ : Shape).Idx → EReal

/-- The column of scales: row `r` holds the inverse square root of the kernel's form of the degree. -/
def degCol (one : EReal) (a : Mat) : Col := fun j => Ideal.rsqrt (degK one a ⟨(j 0).val, idx2_lt0 j⟩)

theorem degCol_ix2 (one : EReal) (a : Mat) (r : Fin 8192) (z : Fin 1) : degCol one a (ix2 r z) = Ideal.rsqrt (degK one a r) := rfl

/-- The normalised array from the input, a column of row scales and a row of column scales. -/
def normOf (one : EReal) (a : Mat) (dc : Col) (dr : Row) : Mat := fun j =>
  fixedAt one a ⟨(j 0).val, idx2_lt0 j⟩ ⟨(j 1).val, idx2_lt1 j⟩
    * dc (ix2 ⟨(j 0).val, idx2_lt0 j⟩ (0 : Fin 1)) * dr (ix2 (0 : Fin 1) ⟨(j 1).val, idx2_lt1 j⟩)

theorem normOf_ix2 (one : EReal) (a : Mat) (dc : Col) (dr : Row) (r c : Fin 8192) :
    normOf one a dc dr (ix2 r c) = fixedAt one a r c * dc (ix2 r (0 : Fin 1)) * dr (ix2 (0 : Fin 1) c) := rfl

end Cert.SelfLoop

end
-- ==== Proof.KI.Value0.lean ====
/-
  The first launch's output array as one function of the input array.

  The launch has 16 points. Point `t` sees rows `512 t … 512 t + 511` of the 8192 × 8192 input, full width, and writes
  back rows `512 t … 512 t + 511` of the 8192 × 1 output column. What it writes at row `p` of its block is the inverse
  square root of the row's sum plus one minus the row's sum masked to the diagonal column, the diagonal being found by
  comparing the global row number `512 t + p` with the column number. Read at the input's rows this is, at global
  row `r = 512 t + p`, exactly the degree as the kernel forms it (`degK`), so each point writes its block of the one
  column `degCol` (`flushed0_eq`). The 16 blocks cover the column: row `r` is in the block of point `r / 512`
  (`cover0`). Hence after the launch the output array is `degCol` of the input array (`arrAt0`).
-/
import proofs.«125021_j2216203125145_2_alg».proof.Proof.KI.Pay0
import proofs.«125021_j2216203125145_2_alg».proof.Proof.Spec2

set_option maxRecDepth 16384

noncomputable section

namespace Cert.KernelIdeal.Hand

open Cert.KernelIdeal Cert.KernelIdeal.Gen Cert.SelfLoop
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- If the block `x0` at grid coordinate `i` holds, in its row `p`, row `r = 512 i + p` of the matrix `a`, then what the
    body leaves at row `p` is the column of scales of `a` at row `r`: the two sums are the sums of row `r`, and the mask
    `512 i + p = q` is `r = q`. -/
theorem rowBlock_degCol (i : grid0.Coords) (x0 : Vec Ideal S512x8192 .f32) (a : Mat) (p : Fin 512) (z : Fin 1) (r : Fin 8192)
    (hr : r.val = 512 * (i 0).val + p.val) (hx : ∀ q : Fin 8192, x0 (ix2 p q) = a (ix2 r q)) :
    rowBlock (F := Ideal) i x0 (ix2 p z) = degCol (Ideal.ofBits .f32 0x3F800000#32) a (ix2 r z) := by
  rw [rowBlock_apply, degCol_ix2]
  unfold degK
  refine congrArg Ideal.rsqrt (congrArg₂ (· + ·) (Finset.sum_congr rfl fun q _ => hx q)
    (congrArg (fun d => Ideal.ofBits .f32 0x3F800000#32 - d) (Finset.sum_congr rfl fun q _ => ?_)))
  rw [hx q]
  exact if_congr (by rw [← hr]; exact Fin.val_inj) rfl rfl

/-- The index maps over the 16 points: at point `t` the input's block is block row `t`, block column `0`; the output's
    block is block row `t`; and the grid coordinate is `t`. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 ∧ ((grid0.coords t) 0).val = t.val :=
  (by decide +kernel : ∀ t : Fin grid0.N, _)

/-- The input's block at point `t`, read at `(p, q)`, is the input array at row `512 t + p`, column `q`. -/
theorem iblk0_in_apply (c : Dev nD) (t : Fin cfg0.N) (p : Fin 512) (q : Fin 8192) (k : S8192x8192.Idx)
    (hk0 : (k 0).val = 512 * t.val + p.val) (hk1 : (k 1).val = q.val) :
    (iblk0 V c 0 t : Vec Ideal S512x8192 .f32) (ix2 p q) = (V c main_arg0 : S8192x8192.Idx → EReal) k := by
  obtain ⟨e0, e1, -⟩ := idx_facts0 t
  unfold iblk0
  rw [View.read_apply]
  show V c main_arg0 _ = V c main_arg0 _
  refine congrArg (V c main_arg0) ?_
  funext a; apply Fin.ext
  match a with
  | ⟨0, _⟩ => show win0_0.index t (0 : Fin 2) * 512 + 1 * p.val = (k 0).val; omega
  | ⟨1, _⟩ => show win0_0.index t (1 : Fin 2) * 8192 + 1 * q.val = (k 1).val; omega

/-- What point `t` leaves at position `y` of its output block is the column of scales of the input array at the row
    `512 t + y₀` that the position has in the output array. -/
theorem rowBlock_block (c : Dev nD) (t : Fin cfg0.N) (y : S512x1.Idx) (k : S8192x1.Idx)
    (hk0 : (k 0).val = 512 * t.val + (y 0).val) :
    rowBlock (F := Ideal) (grid0.coords t) (iblk0 V c 0 t) y
      = degCol (Ideal.ofBits .f32 0x3F800000#32) (V c main_arg0) k := by
  obtain ⟨p, z, rfl⟩ : ∃ (p : Fin 512) (z : Fin 1), y = ix2 p z := ⟨y 0, y 1, eq_ix2 y⟩
  obtain ⟨r, w, rfl⟩ : ∃ (r : Fin 8192) (w : Fin 1), k = ix2 r w := ⟨k 0, k 1, eq_ix2 k⟩
  obtain ⟨-, -, -, -, e4⟩ := idx_facts0 t
  obtain rfl : w = z := Subsingleton.elim _ _
  exact rowBlock_degCol (grid0.coords t) (iblk0 V c 0 t) (V c main_arg0) p w r (by rw [e4]; exact hk0)
    (fun q => iblk0_in_apply V c t p q (ix2 r q) hk0 rfl)

/-- What point `t` writes back is its block of the column of scales of the input array. -/
theorem flushed0_eq (c : Dev nD) (t : Fin cfg0.N) :
    (dat0 (F := Ideal) V c).flushed 1 t
      = ((cfg0.win 1).blk t).view.read (Elt Ideal) (degCol (Ideal.ofBits .f32 0x3F800000#32) (V c main_arg0)) := by
  show (cfg0.win 1).cut (grid0.coords t) ((dat0 V c).after 1 t) = _
  rw [after0_1]
  funext y
  obtain ⟨-, -, e2, e3, -⟩ := idx_facts0 t
  exact rowBlock_block V c t ((cfg0.win 1).xinj (grid0.coords t) y) (((cfg0.win 1).blk t).view.emb y)
    (by show win0_1.index t (0 : Fin 2) * 512 + 1 * (y 0).val = 512 * t.val + (y 0).val; omega)

/-- A position of the output column is in point `t`'s block when each coordinate is in the block's range on its axis. -/
theorem mem_blk0 (t : Fin cfg0.N) (i : S8192x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v0).slice (win0_1.rect t)).set ↔ _
  rw [View.set_slice_whole, Rect.mem_set_unit]
  exact Iff.rfl

/-- Every row of the output column is written by some point: row `r` by point `r / 512`. -/
theorem cover0 (i : S8192x1.Idx) : ∃ t : Fin cfg0.N, (cfg0.win 1).flush t = true ∧ i ∈ ((cfg0.win 1).blk t).view.set := by
  have hN : cfg0.N = 16 := N_0
  have hi0 : (i 0).val < 8192 := (i 0).isLt
  have hi1 : (i 1).val < 1 := (i 1).isLt
  have ht : (i 0).val / 512 < cfg0.N := by rw [hN]; omega
  obtain ⟨-, -, e2, e3, -⟩ := idx_facts0 ⟨(i 0).val / 512, ht⟩
  refine ⟨⟨(i 0).val / 512, ht⟩, flush0_1 _, ?_⟩
  rw [mem_blk0]
  intro a
  match a with
  | ⟨0, _⟩ =>
    show win0_1.index ⟨(i 0).val / 512, ht⟩ (0 : Fin 2) * 512 ≤ (i 0).val ∧ (i 0).val < win0_1.index ⟨(i 0).val / 512, ht⟩ (0 : Fin 2) * 512 + 512
    have e2' : win0_1.index ⟨(i 0).val / 512, ht⟩ (0 : Fin 2) = (i 0).val / 512 := e2
    omega
  | ⟨1, _⟩ =>
    show win0_1.index ⟨(i 0).val / 512, ht⟩ (1 : Fin 2) * 1 ≤ (i 1).val ∧ (i 1).val < win0_1.index ⟨(i 0).val / 512, ht⟩ (1 : Fin 2) * 1 + 1
    omega

/-- After the first launch the output array is the column of scales of the input array the launch was entered with. -/
theorem arrAt0 (c : Dev nD) :
    (dat0 (F := Ideal) V c).arrAt 1 cfg0.N
      = (degCol (Ideal.ofBits .f32 0x3F800000#32) (V c main_arg0) : Buf (Elt Ideal) ((c : Thread nD τ).loc main_v0)) :=
  (dat0 V c).arrAt_eq_of_cover 1 (degCol (Ideal.ofBits .f32 0x3F800000#32) (V c main_arg0))
    (fun t _ => flushed0_eq V c t) (cover0)

end Cert.KernelIdeal.Hand

end
-- ==== Proof.KI.Pay1.lean ====
/-
  The second launch's output block at an index.

  At grid coordinates `(i, j)` the body stores into its whole 1024 × 2048 output block the tile times the row scales
  times the column scales, and, when the tile's row range `1024 i … 1024 i + 1023` and column range
  `2048 j … 2048 j + 2047` overlap, stores again the same product with the tile's entries on the global diagonal replaced
  by the unit entry. Both stores cover the whole block, so the later one is what the block holds.
  * At an index `(p, q)` the plain product is `tile (p, q) · rscale (p, 0) · cscale (0, q)`: the two scale vectors are
    broadcast along the columns and along the rows.
  * The body's mask compares `1024 i + p` with `2048 j + q` on 32-bit words; for `i < 8`, `j < 4`, `p < 1024`,
    `q < 2048` neither side wraps, so the words agree exactly when the numbers do.
  * The body's overlap test, on 32-bit words, holds exactly when `1024 i < 2048 j + 2048` and `2048 j < 1024 i + 1024`
    (checked on the 32 pairs). When it fails the two ranges are disjoint, so no index of the tile is on the diagonal
    and the plain product is the diagonal-fixed product.
  Hence in both cases the block at `(p, q)` is `(if 1024 i + p = 2048 j + q then 1 else tile (p, q)) · rscale (p, 0) · cscale (0, q)`.
-/
import proofs.«125021_j2216203125145_2_alg».proof.Proof.KI.Data
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem

private theorem zeroOffsets : (![0, 0] : Fin 2 → Nat) = fun _ => 0 := funext fun a => by fin_cases a <;> rfl

/-- An `[a, 1]` column broadcast to `[a, b]` reads, at `(p, c)`, the column's entry of row `p`. -/
private theorem broadcastTo_column_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The plain product at an index. -/
theorem pay3_apply (x0 : Vec Ideal S1024x2048 .f32) (x1 : Vec Ideal S1024x1 .f32) (x2 : Vec Ideal S1x2048 .f32) (p : Fin 1024) (q : Fin 2048) :
    k1_pay3 x0 x1 x2 (ix2 p q) = x0 (ix2 p q) * x1 (ix2 p (0 : Fin 1)) * x2 (ix2 (0 : Fin 1) q) := by
  unfold k1_pay3 k1_pay1 k1_pay2
  dsimp only
  rw [mulf_apply, mulf_apply, shapeCast_self, shapeCast_self, broadcastTo_column_apply, broadcastTo_1b_ab_apply]

/-- On 32-bit words, `1024 a + p` and `2048 b + q` are the same word exactly when they are the same number,
    for block coordinates `a < 8`, `b < 4` and in-block coordinates `p < 1024`, `q < 2048`. -/
private theorem word_eq_iff (a b p q : Nat) (ha : a < 8) (hb : b < 4) (hp : p < 1024) (hq : q < 2048) :
    (BitVec.ofNat 32 a * 1024#32 + BitVec.ofNat 32 p = BitVec.ofNat 32 b * 2048#32 + BitVec.ofNat 32 q)
      ↔ 1024 * a + p = 2048 * b + q := by
  rw [← BitVec.toNat_inj]
  simp only [BitVec.toNat_add, BitVec.toNat_mul, BitVec.toNat_ofNat, Nat.reducePow, Nat.reduceMod]
  omega

/-- The equality test's bit is set exactly when the two words are equal. -/
private theorem cmpi_eq_one_iff {w : Nat} (x y : BitVec w) : IntOp.cmpi .eq x y = 1#1 ↔ x = y := by
  show BitVec.ofBool (x == y) = 1#1 ↔ x = y
  constructor
  · intro h
    by_contra hne
    rw [beq_eq_false_iff_ne.mpr hne] at h
    exact absurd h (by decide)
  · intro h; subst h; rw [beq_self_eq_true]; rfl

/-- A select on the body's diagonal mask at `(p, q)` of the tile at block row `a` and block column `b`. -/
private theorem select_diag (a b p q : Nat) (ha : a < 8) (hb : b < 4) (hp : p < 1024) (hq : q < 2048) {α : Type} (A B : α) :
    Scalar.select (IntOp.cmpi .eq (IntOp.addi (Scalar.muli (BitVec.ofNat 32 a) 1024#32) (BitVec.ofNat 32 p))
      (IntOp.addi (Scalar.muli (BitVec.ofNat 32 b) 2048#32) (BitVec.ofNat 32 q))) A B
      = if 1024 * a + p = 2048 * b + q then A else B := by
  unfold Scalar.select
  exact if_congr ((cmpi_eq_one_iff _ _).trans (word_eq_iff a b p q ha hb hp hq)) rfl rfl

/-- The diagonal-fixed product at an index. -/
theorem pay4_apply (i : grid1.Coords) (x0 : Vec Ideal S1024x2048 .f32) (x1 : Vec Ideal S1024x1 .f32) (x2 : Vec Ideal S1x2048 .f32) (p : Fin 1024) (q : Fin 2048) :
    k1_pay4 i x0 x1 x2 (ix2 p q)
      = (if 1024 * (i 0).val + p.val = 2048 * (i 1).val + q.val then Ideal.ofBits .f32 0x3F800000#32 else x0 (ix2 p q))
          * x1 (ix2 p (0 : Fin 1)) * x2 (ix2 (0 : Fin 1) q) := by
  have h0 : (i 0).val < 8 := (i 0).isLt
  have h1 : (i 1).val < 4 := (i 1).isLt
  unfold k1_pay4 k1_pay1 k1_pay2
  dsimp only
  rw [mulf_apply, mulf_apply, shapeCast_self, shapeCast_self, broadcastTo_column_apply, broadcastTo_1b_ab_apply, select_apply]
  unfold cmpi addi
  rw [iota_single_apply, iota_single_apply, broadcast_apply, broadcast_apply, broadcast_apply]
  rw [select_diag (i 0).val (i 1).val p.val q.val h0 h1 p.isLt q.isLt]
  rfl

/-- The body's overlap test at block row `a` and block column `b`, checked on the 32 pairs. -/
private theorem overlap_iff : ∀ (a : Fin 8) (b : Fin 4),
    (Scalar.cmpi .ne (Scalar.extui (Scalar.andi
        (Scalar.cmpi .slt (Scalar.muli (BitVec.ofNat 32 a.val) 1024#32) (Scalar.addi (Scalar.muli (BitVec.ofNat 32 b.val) 2048#32) 2048#32))
        (Scalar.cmpi .slt (Scalar.muli (BitVec.ofNat 32 b.val) 2048#32) (Scalar.addi (Scalar.muli (BitVec.ofNat 32 a.val) 1024#32) 1024#32)))) 0#32 = 1#1)
      ↔ (1024 * a.val < 2048 * b.val + 2048 ∧ 2048 * b.val < 1024 * a.val + 1024) := by
  decide +kernel

/-- The body's test holds exactly when the tile's row range and column range overlap. -/
private theorem meetsDiag_iff (i : grid1.Coords) :
    meetsDiag i = 1#1 ↔ (1024 * (i 0).val < 2048 * (i 1).val + 2048 ∧ 2048 * (i 1).val < 1024 * (i 0).val + 1024) :=
  overlap_iff (i 0) (i 1)

/-- What the second body leaves in its output block, at an index: the tile's entry, replaced by the unit entry where the
    global row and column numbers agree, times the row's scale times the column's scale. When the tile's row range and
    column range are disjoint only the plain product is stored, and no index of the tile is on the diagonal. -/
theorem normBlock_apply (i : grid1.Coords) (x0 : Vec Ideal S1024x2048 .f32) (x1 : Vec Ideal S1024x1 .f32) (x2 : Vec Ideal S1x2048 .f32) (p : Fin 1024) (q : Fin 2048) :
    normBlock (F := Ideal) i x0 x1 x2 (ix2 p q)
      = (if 1024 * (i 0).val + p.val = 2048 * (i 1).val + q.val then Ideal.ofBits .f32 0x3F800000#32 else x0 (ix2 p q))
          * x1 (ix2 p (0 : Fin 1)) * x2 (ix2 (0 : Fin 1) q) := by
  have h0 : (i 0).val < 8 := (i 0).isLt
  have h1 : (i 1).val < 4 := (i 1).isLt
  unfold normBlock
  by_cases hd : meetsDiag i = 1#1
  · rw [if_pos hd, View.canon_cons_unit_zero zeroOffsets]
    simp only [View.ld_unit_zero (S := S1024x2048) zeroOffsets, View.ld_unit_zero (S := S1024x1) zeroOffsets, View.ld_unit_zero (S := S1x2048) zeroOffsets]
    exact pay4_apply i x0 x1 x2 p q
  · rw [if_neg hd, View.canon_unit_zero zeroOffsets]
    simp only [View.ld_unit_zero (S := S1024x2048) zeroOffsets, View.ld_unit_zero (S := S1024x1) zeroOffsets, View.ld_unit_zero (S := S1x2048) zeroOffsets]
    rw [pay3_apply]
    have hne : ¬ (1024 * (i 0).val + p.val = 2048 * (i 1).val + q.val) := by
      intro e
      apply hd
      rw [meetsDiag_iff]
      have := p.isLt
      have := q.isLt
      omega
    rw [if_neg hne]

end Cert.KernelIdeal.Hand

end
-- ==== Proof.KI.Cover1.lean ====
/-
  The second launch's write-backs cover the result array.

  The grid is 8 × 4, run row-major: point number `t` has coordinates `(t / 4, t % 4)`, and writes back the 1024 × 2048
  tile at block row `t / 4`, block column `t % 4` of the 8192 × 8192 result. An index `(r, c)` of the result therefore
  lies in the tile of the point with coordinates `(r / 1024, c / 2048)`, which is point number `4 (r / 1024) + c / 2048`;
  every point writes its tile back. So every index is in some written-back tile.
-/
import proofs.«125021_j2216203125145_2_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window BodyObligation cellOf)

/-- The printed index map of the result's window and the grid's numbering, decided over the grid: point `t` sits at block
    row `t / 4`, block column `t % 4`, which are its grid coordinates. -/
theorem idx_facts1_out : ∀ t : Fin cfg1.N, win1_3.index t (0 : Fin 2) = t.val / 4 ∧ win1_3.index t (1 : Fin 2) = t.val % 4
    ∧ ((grid1.coords t) 0).val = t.val / 4 ∧ ((grid1.coords t) 1).val = t.val % 4 :=
  (by decide +kernel : ∀ t : Fin grid1.N, _)

/-- An index of the result is in point `t`'s tile iff each coordinate is in the tile's range on its axis. -/
theorem mem_blk1 (t : Fin cfg1.N) (i : S8192x8192.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v2).slice (win1_3.rect t)).set ↔ _
  rw [View.set_slice_whole, Rect.mem_set_unit]
  exact Iff.rfl

/-- Every index of the result lies in the tile some point writes back: `(r, c)` in that of point `4 (r / 1024) + c / 2048`. -/
theorem cover1 (i : S8192x8192.Idx) : ∃ t : Fin cfg1.N, (cfg1.win 3).flush t = true ∧ i ∈ ((cfg1.win 3).blk t).view.set := by
  have hN : cfg1.N = 32 := N_1
  have hi0 : (i 0).val < 8192 := (i 0).isLt
  have hi1 : (i 1).val < 8192 := (i 1).isLt
  have ht : 4 * ((i 0).val / 1024) + (i 1).val / 2048 < cfg1.N := by rw [hN]; omega
  obtain ⟨e0, e1, -, -⟩ := idx_facts1_out ⟨4 * ((i 0).val / 1024) + (i 1).val / 2048, ht⟩
  have e0' : win1_3.index ⟨4 * ((i 0).val / 1024) + (i 1).val / 2048, ht⟩ (0 : Fin 2) = (4 * ((i 0).val / 1024) + (i 1).val / 2048) / 4 := e0
  have e1' : win1_3.index ⟨4 * ((i 0).val / 1024) + (i 1).val / 2048, ht⟩ (1 : Fin 2) = (4 * ((i 0).val / 1024) + (i 1).val / 2048) % 4 := e1
  refine ⟨⟨4 * ((i 0).val / 1024) + (i 1).val / 2048, ht⟩, flush1_3 _, ?_⟩
  rw [mem_blk1]
  intro a
  match a with
  | ⟨0, _⟩ =>
    show win1_3.index ⟨4 * ((i 0).val / 1024) + (i 1).val / 2048, ht⟩ (0 : Fin 2) * 1024 ≤ (i 0).val
      ∧ (i 0).val < win1_3.index ⟨4 * ((i 0).val / 1024) + (i 1).val / 2048, ht⟩ (0 : Fin 2) * 1024 + 1024
    omega
  | ⟨1, _⟩ =>
    show win1_3.index ⟨4 * ((i 0).val / 1024) + (i 1).val / 2048, ht⟩ (1 : Fin 2) * 2048 ≤ (i 1).val
      ∧ (i 1).val < win1_3.index ⟨4 * ((i 0).val / 1024) + (i 1).val / 2048, ht⟩ (1 : Fin 2) * 2048 + 2048
    omega

end Cert.KernelIdeal.Hand

end
-- ==== Proof.KI.Arr1.lean ====
/-
  The second launch's write-backs, put together: the result array is `normOf` of the three arrays the launch was entered with.

  The grid is 8 × 4 and point `(i, j)` holds the 1024 × 2048 tile of the input at block `(i, j)`, the 1024 × 1 piece of the
  column of scales at block row `i`, and the 1 × 2048 piece of the row of scales at block column `j`. So the element `(p, q)` of the
  tile is the input at `(1024 i + p, 2048 j + q)`, element `p` of the column piece is the column at `1024 i + p`, and element
  `q` of the row piece is the row at `2048 j + q`. What the body leaves at `(p, q)` is the entry with the diagonal replaced —
  the test `1024 i + p = 2048 j + q` is the test "row = column" at the global index — times the two scales: `normOf` at
  `(1024 i + p, 2048 j + q)`, which is where the write-back puts it. The tiles cover the array, so the array ends as `normOf`.
-/
import proofs.«125021_j2216203125145_2_alg».proof.Proof.KI.Pay1
import proofs.«125021_j2216203125145_2_alg».proof.Proof.KI.Cover1
import proofs.«125021_j2216203125145_2_alg».proof.Proof.Spec2
import Idealize.ShloMosaic.Lib.Pipeline.Value
import Idealize.ShloMosaic.Lib.ValueIdx

set_option maxRecDepth 16384

noncomputable section

namespace Cert.KernelIdeal.Hand

open Cert.KernelIdeal Cert.KernelIdeal.Gen Cert.SelfLoop
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The block indices of the four windows at every point, in the point's grid coordinates `(i, j)`: the tile and the result at
    `(i, j)`, the column piece at `(i, 0)`, the row piece at `(0, j)`. -/
theorem win1_index_coords : ∀ t : Fin cfg1.N,
    win1_0.index t (0 : Fin 2) = (grid1.coords t 0).val ∧ win1_0.index t (1 : Fin 2) = (grid1.coords t 1).val
    ∧ win1_1.index t (0 : Fin 2) = (grid1.coords t 0).val ∧ win1_1.index t (1 : Fin 2) = 0
    ∧ win1_2.index t (0 : Fin 2) = 0 ∧ win1_2.index t (1 : Fin 2) = (grid1.coords t 1).val
    ∧ win1_3.index t (0 : Fin 2) = (grid1.coords t 0).val ∧ win1_3.index t (1 : Fin 2) = (grid1.coords t 1).val :=
  (by decide +kernel : ∀ t : Fin grid1.N, _)

variable (V : (c : Dev nD) → (b : Ref sig .tc) → Buf (Elt Ideal) ((c : Thread nD τ).loc b))

/-- Element `(p, q)` of the tile at point `t` is the input at `(1024 i + p, 2048 j + q)`. -/
theorem iblk1_tile_apply (c : Dev nD) (t : Fin cfg1.N) (p : Fin 1024) (q : Fin 2048) (k : S8192x8192.Idx)
    (hk0 : (k 0).val = 1024 * (grid1.coords t 0).val + p.val) (hk1 : (k 1).val = 2048 * (grid1.coords t 1).val + q.val) :
    (iblk1 V c 0 t : Vec Ideal S1024x2048 .f32) (ix2 p q) = (V c main_arg0 : S8192x8192.Idx → EReal) k := by
  obtain ⟨e0, e1, -⟩ := win1_index_coords t
  unfold iblk1
  rw [View.read_apply]
  show V c main_arg0 _ = V c main_arg0 _
  refine congrArg (V c main_arg0) ?_
  funext a; apply Fin.ext
  match a with
  | ⟨0, _⟩ => show win1_0.index t (0 : Fin 2) * 1024 + 1 * p.val = (k 0).val; omega
  | ⟨1, _⟩ => show win1_0.index t (1 : Fin 2) * 2048 + 1 * q.val = (k 1).val; omega

/-- Element `p` of the column piece at point `t` is the column of scales at `1024 i + p`. -/
theorem iblk1_col_apply (c : Dev nD) (t : Fin cfg1.N) (p : Fin 1024) (z : Fin 1) (k : S8192x1.Idx)
    (hk0 : (k 0).val = 1024 * (grid1.coords t 0).val + p.val) :
    (iblk1 V c 1 t : Vec Ideal S1024x1 .f32) (ix2 p z) = (V c main_v0 : S8192x1.Idx → EReal) k := by
  obtain ⟨-, -, e2, e3, -⟩ := win1_index_coords t
  have hk1 : (k 1).val < 1 := (k 1).isLt
  have hz : z.val < 1 := z.isLt
  unfold iblk1
  rw [View.read_apply]
  show V c main_v0 _ = V c main_v0 _
  refine congrArg (V c main_v0) ?_
  funext a; apply Fin.ext
  match a with
  | ⟨0, _⟩ => show win1_1.index t (0 : Fin 2) * 1024 + 1 * p.val = (k 0).val; omega
  | ⟨1, _⟩ => show win1_1.index t (1 : Fin 2) * 1 + 1 * z.val = (k 1).val; omega

/-- Element `q` of the row piece at point `t` is the row of scales at `2048 j + q`. -/
theorem iblk1_row_apply (c : Dev nD) (t : Fin cfg1.N) (z : Fin 1) (q : Fin 2048) (k : S1x8192.Idx)
    (hk1 : (k 1).val = 2048 * (grid1.coords t 1).val + q.val) :
    (iblk1 V c 2 t : Vec Ideal S1x2048 .f32) (ix2 z q) = (V c main_v1 : S1x8192.Idx → EReal) k := by
  obtain ⟨-, -, -, -, e4, e5, -⟩ := win1_index_coords t
  have hk0 : (k 0).val < 1 := (k 0).isLt
  have hz : z.val < 1 := z.isLt
  unfold iblk1
  rw [View.read_apply]
  show V c main_v1 _ = V c main_v1 _
  refine congrArg (V c main_v1) ?_
  funext a; apply Fin.ext
  match a with
  | ⟨0, _⟩ => show win1_2.index t (0 : Fin 2) * 1 + 1 * z.val = (k 0).val; omega
  | ⟨1, _⟩ => show win1_2.index t (1 : Fin 2) * 2048 + 1 * q.val = (k 1).val; omega

/-- One element of what the body leaves, on blocks that are pieces of three arrays `a`, `dc`, `dr` at the global index
    `(r, s) = (1024 i + p, 2048 j + q)`: the normalised array at `(r, s)`. -/
theorem normBlock_normOf (i : grid1.Coords) (x0 : Vec Ideal S1024x2048 .f32) (x1 : Vec Ideal S1024x1 .f32) (x2 : Vec Ideal S1x2048 .f32)
    (a : Mat) (dc : Col) (dr : Row) (p : Fin 1024) (q : Fin 2048) (r s : Fin 8192)
    (hr : r.val = 1024 * (i 0).val + p.val) (hs : s.val = 2048 * (i 1).val + q.val)
    (h0 : x0 (ix2 p q) = a (ix2 r s)) (h1 : x1 (ix2 p (0 : Fin 1)) = dc (ix2 r (0 : Fin 1)))
    (h2 : x2 (ix2 (0 : Fin 1) q) = dr (ix2 (0 : Fin 1) s)) :
    normBlock (F := Ideal) i x0 x1 x2 (ix2 p q) = normOf (Ideal.ofBits .f32 0x3F800000#32) a dc dr (ix2 r s) := by
  have hcond : (1024 * (i 0).val + p.val = 2048 * (i 1).val + q.val) ↔ r = s := by
    rw [← hr, ← hs]; exact Fin.val_inj
  refine (normBlock_apply i x0 x1 x2 p q).trans ?_
  rw [normOf_ix2, h0, h1, h2]
  unfold fixedAt
  simp only [hcond]

/-- What the body leaves at point `t`, read at a block coordinate `y`, is the normalised array at the global index `k` of `y`. -/
theorem normBlock_block (c : Dev nD) (t : Fin cfg1.N) (y : S1024x2048.Idx) (k : S8192x8192.Idx)
    (hk0 : (k 0).val = 1024 * (grid1.coords t 0).val + (y 0).val) (hk1 : (k 1).val = 2048 * (grid1.coords t 1).val + (y 1).val) :
    normBlock (F := Ideal) (grid1.coords t) (iblk1 V c 0 t) (iblk1 V c 1 t) (iblk1 V c 2 t) y
      = normOf (Ideal.ofBits .f32 0x3F800000#32) (V c main_arg0) (V c main_v0) (V c main_v1) k := by
  obtain ⟨p, q, rfl⟩ : ∃ (p : Fin 1024) (q : Fin 2048), y = ix2 p q := ⟨y 0, y 1, eq_ix2 y⟩
  obtain ⟨r, s, rfl⟩ : ∃ (r s : Fin 8192), k = ix2 r s := ⟨k 0, k 1, eq_ix2 k⟩
  exact normBlock_normOf (grid1.coords t) (iblk1 V c 0 t) (iblk1 V c 1 t) (iblk1 V c 2 t)
    (V c main_arg0) (V c main_v0) (V c main_v1) p q r s hk0 hk1
    (iblk1_tile_apply V c t p q (ix2 r s) hk0 hk1)
    (iblk1_col_apply V c t p (0 : Fin 1) (ix2 r (0 : Fin 1)) hk0)
    (iblk1_row_apply V c t (0 : Fin 1) q (ix2 (0 : Fin 1) s) hk1)

/-- What point `t` writes back is block `t` of the normalised array. -/
theorem flushed1_eq (c : Dev nD) (t : Fin cfg1.N) :
    (dat1 (F := Ideal) V c).flushed 3 t
      = ((cfg1.win 3).blk t).view.read (Elt Ideal)
          (normOf (Ideal.ofBits .f32 0x3F800000#32) (V c main_arg0) (V c main_v0) (V c main_v1)) := by
  show (cfg1.win 3).cut (grid1.coords t) ((dat1 V c).after 3 t) = _
  rw [after1_3]
  funext y
  obtain ⟨-, -, -, -, -, -, e6, e7⟩ := win1_index_coords t
  exact normBlock_block V c t ((cfg1.win 3).xinj (grid1.coords t) y) (((cfg1.win 3).blk t).view.emb y)
    (by show win1_3.index t (0 : Fin 2) * 1024 + 1 * (y 0).val = 1024 * (grid1.coords t 0).val + (y 0).val; omega)
    (by show win1_3.index t (1 : Fin 2) * 2048 + 1 * (y 1).val = 2048 * (grid1.coords t 1).val + (y 1).val; omega)

/-- The result array after the second launch's write-backs is the normalised array: every point writes back its block of it,
    and the tiles cover the array. -/
theorem arrAt1 (c : Dev nD) :
    (dat1 (F := Ideal) V c).arrAt 3 cfg1.N
      = (normOf (Ideal.ofBits .f32 0x3F800000#32) (V c main_arg0) (V c main_v0) (V c main_v1) : Buf (Elt Ideal) ((c : Thread nD τ).loc main_v2)) :=
  (dat1 V c).arrAt_eq_of_cover 3 (normOf (Ideal.ofBits .f32 0x3F800000#32) (V c main_arg0) (V c main_v0) (V c main_v1))
    (fun t _ => flushed1_eq V c t) cover1

end Cert.KernelIdeal.Hand

end
-- ==== Proof.DegLaw.lean ====
/-
  The kernel's way to the degree agrees with the specification's on real entries.

  The kernel sums the untouched row, then adds `one` minus the row masked to its diagonal entry. The masked sum has
  one non-zero term, the diagonal entry itself. Splitting both row sums at the diagonal column leaves the same
  off-diagonal sum on either side, and what remains is `x + (one - x) = one` at the diagonal: true of real numbers,
  which is why the entries are asked to be real (with `x` infinite the left side is not `one`).
-/
import proofs.«125021_j2216203125145_2_alg».proof.Proof.Spec

noncomputable section

open scoped BigOperators

namespace Cert.SelfLoop

open Idealize.ShloMosaic Idealize.ShloMosaic.ValueIdx

/-- The inclusion of the reals in the extended reals commutes with finite sums. -/
theorem coe_sum {ι : Type*} (s : Finset ι) (g : ι → ℝ) :
    ((∑ i ∈ s, g i : ℝ) : EReal) = ∑ i ∈ s, (g i : EReal) := by
  classical
  induction s using Finset.induction_on with
  | empty => simp only [Finset.sum_empty, EReal.coe_zero]
  | insert i s hi ih => rw [Finset.sum_insert hi, Finset.sum_insert hi, EReal.coe_add, ih]

/-- Over the reals: a row sum plus `o` minus the diagonal entry is the sum of the row with that entry replaced by `o`. -/
theorem real_row_fix (g : Fin 8192 → ℝ) (o : ℝ) (r : Fin 8192) :
    (∑ c : Fin 8192, g c) + (o - g r) = ∑ c : Fin 8192, (if r = c then o else g c) := by
  rw [← Finset.add_sum_erase Finset.univ g (Finset.mem_univ r),
    ← Finset.add_sum_erase Finset.univ (fun c => if r = c then o else g c) (Finset.mem_univ r)]
  have h : ∑ c ∈ Finset.univ.erase r, (if r = c then o else g c) = ∑ c ∈ Finset.univ.erase r, g c := by
    refine Finset.sum_congr rfl fun c hc => ?_
    rw [if_neg (Finset.ne_of_mem_erase hc).symm]
  rw [h, if_pos rfl]
  ring

/-- On real entries the kernel's degree is the specification's. -/
theorem degK_eq (one : EReal) (a : Mat) (r : Fin 8192) (hone : ∃ x : ℝ, one = (x : EReal))
    (ha : ∀ j, ∃ x : ℝ, a j = (x : EReal)) : degK one a r = deg one a r := by
  obtain ⟨o, rfl⟩ := hone
  choose f hf using ha
  have h1 : ∀ c : Fin 8192, a (ix2 r c) = ((f (ix2 r c) : ℝ) : EReal) := fun c => hf _
  -- the masked sum is the diagonal entry
  have h2 : (∑ c : Fin 8192, (if r = c then ((f (ix2 r c) : ℝ) : EReal) else 0))
      = ((f (ix2 r r) : ℝ) : EReal) := by
    rw [Finset.sum_ite_eq, if_pos (Finset.mem_univ r)]
  -- the fixed row's entries are real
  have h3 : ∀ c : Fin 8192, (if r = c then (o : EReal) else ((f (ix2 r c) : ℝ) : EReal))
      = (((if r = c then o else f (ix2 r c)) : ℝ) : EReal) := by
    intro c
    by_cases hc : r = c
    · rw [if_pos hc, if_pos hc]
    · rw [if_neg hc, if_neg hc]
  unfold degK deg fixedAt
  simp only [h1]
  rw [h2]
  simp only [h3]
  rw [← coe_sum, ← coe_sum, ← EReal.coe_sub, ← EReal.coe_add,
    real_row_fix (fun c => f (ix2 r c)) o r]

end Cert.SelfLoop

end
-- ==== Proof.Bridge.lean ====
/-
  The kernel's two intermediate arrays put together give the specification's array.

  The second launch multiplies the fixed entry at `(r, c)` by the column of scales at `r` and by the row of scales at `c`.
  The column holds the inverse square root of the kernel's form of the degree, and the row is the same column laid along the
  other axis: its entry at `c` is the column's at `c`. On real entries the kernel's form of the degree is the degree
  (`degK_eq`), so the product is entry `(r, c)` times `(deg r)^(-1/2)` times `(deg c)^(-1/2)`: the specification's entry.

  The re-laying is a shape cast from 8192 × 1 to 1 × 8192: it keeps the row-major position, and position `c` is `(c, 0)`
  in the column (`c * 1 + 0`) and `(0, c)` in the row (`0 * 8192 + c`).
-/
import proofs.«125021_j2216203125145_2_alg».proof.Proof.Spec2
import proofs.«125021_j2216203125145_2_alg».proof.Proof.DegLaw
import Idealize.ShloMosaic.Lib.Pipeline.Value

noncomputable section

namespace Cert.SelfLoop

open Idealize.ShloMosaic Idealize.ShloMosaic.ValueIdx

/-- With the column of scales `degCol` and a row of scales that repeats it along the other axis, the second launch's array
    is the specification's, on real entries. -/
theorem normOf_eq_G (one : EReal) (a : Mat) (hone : ∃ x : ℝ, one = (x : EReal)) (ha : ∀ j, ∃ x : ℝ, a j = (x : EReal))
    (dr : Row) (hdr : ∀ c : Fin 8192, dr (ix2 (0 : Fin 1) c) = degCol one a (ix2 c (0 : Fin 1))) :
    normOf one a (degCol one a) dr = G one a := by
  funext j
  obtain ⟨r, c, rfl⟩ : ∃ r c : Fin 8192, j = ix2 r c := ⟨j 0, j 1, eq_ix2 j⟩
  rw [normOf_ix2, G_ix2, hdr c, degCol_ix2, degCol_ix2, degK_eq one a r hone ha, degK_eq one a c hone ha]
  rfl

/-- The 8192 × 1 column cast to the 1 × 8192 row reads, at `(0, c)`, the column at `(c, 0)`. -/
theorem relaid_apply (x : Col) (h : (⟨2, ![8192, 1]⟩ : Shape).ShapeCasts ⟨2, ![1, 8192]⟩) (c : Fin 8192) :
    shapeCast (⟨2, ![1, 8192]⟩ : Shape) x h (ix2 (0 : Fin 1) c) = x (ix2 c (0 : Fin 1)) := by
  refine shapeCast_apply x h (ix2 (0 : Fin 1) c) (ix2 c (0 : Fin 1)) ?_
  rw [Shape.rowMajor_val_two, Shape.rowMajor_val_two]
  show c.val * 1 + 0 = 0 * 8192 + c.val
  omega

end Cert.SelfLoop

end
-- ==== Proof.FiniteIn.lean ====
/-
  From the precondition to the facts the degree law asks for: every entry of the input is a real number, and so is the
  unit entry put on the diagonal.

  The precondition states that "the absolute value is below plus infinity" holds at every index: it is the conjunction,
  over all indices, of the elementwise comparison, and it is stated to be true. A conjunction that came out true met only
  true terms, so the comparison holds at each index. There the absolute value `max x (-x)` is below `⊤`, which excludes
  both infinities (at `⊥` the negation is `⊤`): what is left of the extended reals is the reals.
-/
import proofs.«125021_j2216203125145_2_alg».proof.Proof.Gen.Pre_finite_inputs
import Idealize.ShloMosaic.Lib.ReduceAll
import Idealize.ShloMosaic.Lib.ValueIdx
import Idealize.ShloMosaic.Lib.IdealHost
import Idealize.ShloMosaic.PureOps.Ideal

noncomputable section

namespace Cert.SelfLoop

open Idealize.ShloMosaic Idealize.ShloMosaic.ValueIdx

/-- The pattern of plus infinity denotes `⊤`. -/
theorem ofBits_inf : Ideal.ofBits .f32 0x7F800000#32 = ⊤ := by
  simp [Ideal.ofBits, Ideal.ieee]

/-- The pattern of `1.0` denotes the real number one. -/
theorem ofBits_one : Ideal.ofBits .f32 0x3F800000#32 = ((1 : ℝ) : EReal) := by
  simp [Ideal.ofBits, Ideal.ieee, -EReal.coe_mul]; norm_num

/-- The unit entry is a real number. -/
theorem one_real : ∃ x : ℝ, Ideal.ofBits .f32 0x3F800000#32 = (x : EReal) := ⟨1, ofBits_one⟩

/-- The scalar shape has one index. -/
instance subsingleton_scalar_idx : Subsingleton Cert.Pre_finite_inputs.S_.Idx :=
  ⟨fun a b => funext fun d => d.elim0⟩

/-- An extended real whose absolute value is below `⊤` is a real number. -/
theorem real_of_abs_lt_top (x : EReal) (h : max x (-x) < ⊤) : ∃ y : ℝ, x = (y : EReal) := by
  induction x using EReal.rec with
  | bot => simp at h
  | coe y => exact ⟨y, rfl⟩
  | top => simp at h

/-- Under the precondition every entry of the input is a real number. -/
theorem finite_of_pre (x : (⟨(⟨2, ![8192, 8192]⟩ : Shape), .f32⟩ : BufTy).Contents (Elt Ideal))
    (h : Cert.Pre_finite_inputs.fn (F := Ideal) x = (fun _ => 1#1)) : ∀ j, ∃ y : ℝ, x j = (y : EReal) := by
  intro j
  have h0 := congrFun h ix0
  dsimp only [Cert.Pre_finite_inputs.fn] at h0
  have hj := Host.reduce_andi_all _ _ _ _ _ h0 j
  rw [cmpf_apply, broadcastInDim_scalar_apply, constant_apply, ofBits_inf] at hj
  have hb : BitVec.ofBool (decide (max (x j : EReal) (-(x j)) < ⊤)) = 1#1 := hj
  have hlt : max (x j : EReal) (-(x j)) < ⊤ := by
    by_contra hn
    rw [decide_eq_false hn] at hb
    exact absurd hb (by decide)
  exact real_of_abs_lt_top (x j) hlt

end Cert.SelfLoop

end
-- ==== Proof.KI.Chain.lean ====
/-
  The kernel program's result array as one function of its input, at the ideal instance.

  Reading the boundary contents of the run backwards: the result is what the second launch's write-backs leave, the
  normalised array `normOf` of the three arrays that launch was entered with; of those, the input is as launched, the
  column of scales is what the first launch's write-backs left — `degCol` of the input —, and the row of scales is that
  column re-laid by the host operation, entry `c` of the row being entry `c` of the column. On finite inputs this is `G`
  (`normOf_eq_G`: the kernel's form of the degree is the degree). What each launch's write-backs leave (`h0`, `h1`) is
  proved beside this module.
-/
import proofs.«125021_j2216203125145_2_alg».proof.Proof.KI.Run
import proofs.«125021_j2216203125145_2_alg».proof.Proof.Bridge
import proofs.«125021_j2216203125145_2_alg».proof.Proof.FiniteIn
import Idealize.ShloMosaic.Lib.StableHlo.Run

set_option maxRecDepth 16384

noncomputable section

namespace Cert.KernelIdeal.Hand

open Cert.KernelIdeal Cert.KernelIdeal.Gen Cert.SelfLoop
open Idealize.ShloMosaic Idealize.ShloMosaic.TcCoe Idealize.ShloMosaic.ValueIdx
open Idealize.SL.Sem
open Idealize.ShloMosaic.Pipeline (Dat Cfg Window BodyObligation cellOf)

/-- The unit entry put on the diagonal: the word both programs carry for 1.0. -/
abbrev one : EReal := Ideal.ofBits .f32 0x3F800000#32

variable (m : (ℓ : Loc nD τ sig) → Buf (Elt Ideal) ℓ) (ρ : Dev nD → PrngReg)

/-- The result array after the run is what the second launch's write-backs leave. -/
theorem W3_result (c : Dev nD) : W3 m ρ c (Proc.devRef .tc main_v2) = (dat1 (V2 m ρ) c).arrAt 3 cfg1.N := W3_arr m ρ c 3

/-- The second launch is entered with the input as launched, -/
theorem V2_input (c : Dev nD) : V2 m ρ c main_arg0 = m ((c : Thread nD τ).loc main_arg0) :=
  (W2_of_ne_row m ρ c main_arg0 (by decide)).trans ((W1_arr m ρ c 0).trans (((dat0 (V0 m ρ) c).arrAt_in 0 rfl _).trans (A_eq0 (V0 m ρ) c 0)))

/-- with the column the first launch's write-backs left, -/
theorem V2_col (c : Dev nD) : V2 m ρ c main_v0 = (dat0 (V0 m ρ) c).arrAt 1 cfg0.N :=
  (W2_of_ne_row m ρ c main_v0 (by decide)).trans (W1_arr m ρ c 1)

/-- and with that column re-laid as a row. -/
theorem V2_row (c : Dev nD) : V2 m ρ c main_v1 = shapeCast S1x8192 (V1 m ρ c main_v0) shapeCasts_S8192x1_S1x8192 := by
  show StableHlo.after hostOps1 (W1 m ρ c) (Proc.devRef .tc main_v1) = _
  after_results
  rfl

variable
  (h0 : ∀ (V : (c : Dev nD) → (b : Ref sig .tc) → Buf (Elt Ideal) ((c : Thread nD τ).loc b)) (c : Dev nD),
    (dat0 (F := Ideal) V c).arrAt 1 cfg0.N = (degCol one (V c main_arg0) : Buf (Elt Ideal) ((c : Thread nD τ).loc main_v0)))
  (h1 : ∀ (V : (c : Dev nD) → (b : Ref sig .tc) → Buf (Elt Ideal) ((c : Thread nD τ).loc b)) (c : Dev nD),
    (dat1 (F := Ideal) V c).arrAt 3 cfg1.N = (normOf one (V c main_arg0) (V c main_v0) (V c main_v1) : Buf (Elt Ideal) ((c : Thread nD τ).loc main_v2)))

include h0 h1 in
/-- On a finite input the result array after the run is the symmetric normalisation `G` of the input. -/
theorem result_eq (c : Dev nD) (hfin : ∀ j, ∃ y : ℝ, m ((c : Thread nD τ).loc main_arg0) j = (y : EReal)) :
    W3 m ρ c (Proc.devRef .tc main_v2) = (G one (m ((c : Thread nD τ).loc main_arg0)) : Buf (Elt Ideal) ((c : Thread nD τ).loc main_v2)) := by
  have ea : V2 m ρ c main_arg0 = m ((c : Thread nD τ).loc main_arg0) := V2_input m ρ c
  have ecol : (dat0 (V0 m ρ) c).arrAt 1 cfg0.N = (degCol one (m ((c : Thread nD τ).loc main_arg0)) : Buf (Elt Ideal) ((c : Thread nD τ).loc main_v0)) :=
    h0 (V0 m ρ) c
  have ec : V2 m ρ c main_v0 = (degCol one (m ((c : Thread nD τ).loc main_arg0)) : Buf (Elt Ideal) ((c : Thread nD τ).loc main_v0)) :=
    (V2_col m ρ c).trans ecol
  have er : ∀ k : Fin 8192, (V2 m ρ c main_v1 : Row) (ix2 (0 : Fin 1) k) = degCol one (m ((c : Thread nD τ).loc main_arg0)) (ix2 k (0 : Fin 1)) := by
    intro k
    rw [V2_row m ρ c, show V1 m ρ c main_v0 = (degCol one (m ((c : Thread nD τ).loc main_arg0)) : Buf (Elt Ideal) ((c : Thread nD τ).loc main_v0)) from (W1_arr m ρ c 1).trans ecol]
    exact relaid_apply _ _ k
  refine (W3_result m ρ c).trans ((h1 (V2 m ρ) c).trans ?_)
  rw [ea, ec]
  exact normOf_eq_G one _ one_real hfin _ er

end Cert.KernelIdeal.Hand

end
-- ==== Proof.RefScatter.lean ====
/-
  The reference's self-loop step, read at an index.

  The reference writes a vector of ones onto the diagonal with one scatter. Its index table has 8192 rows of two
  columns; row k holds the pair (k, k): each column is the iota 0, 1, …, 8191 passed through a negative-index wrap
  (add 8192 where the word is negative), which leaves every word below 8192 as it is. Update number k therefore
  lands at position (k, k), inside the array, and the 8192 landing positions are exactly the diagonal. A scatter is a
  left fold of pointwise overwrites; here every overwrite stores the same constant, so the fold read at (r, c) is that
  constant when some update lands there, which is when r = c, and the operand's entry otherwise:
  `scatter_apply : val_main_v15 x (ix2 r c) = fixedAt oneF32 x r c`, with `oneF32` the number the word `0x3F800000` encodes.
-/
import proofs.«125021_j2216203125145_2_alg».proof.Proof.Spec
import proofs.«125021_j2216203125145_2_alg».proof.Proof.Gen.ReferenceIdeal.Read

noncomputable section

namespace Cert.SelfLoop.Ref

open Idealize.ShloMosaic Idealize.ShloMosaic.ValueIdx
open Cert.ReferenceIdeal Cert.ReferenceIdeal.Gen Cert.ReferenceIdeal.Read

/-! ## A fold of overwrites by one constant -/

/-- A left fold of pointwise overwrites by one constant, read at one index: the constant when some step
    names the index, the start value otherwise. -/
theorem foldl_overwrite_const {ι β α : Type} [DecidableEq ι] (l : List β) (p : β → ι) (c : α) (x : ι → α) (i : ι) :
    (l.foldl (fun r n => fun i' => if i' = p n then c else r i') x) i = if ∃ n ∈ l, i = p n then c else x i := by
  induction l generalizing x with
  | nil => simp
  | cons a l ih =>
    rw [List.foldl_cons, ih]
    by_cases h1 : ∃ n ∈ l, i = p n
    · rw [if_pos h1, if_pos]
      obtain ⟨n, hn, e⟩ := h1
      exact ⟨n, List.mem_cons_of_mem _ hn, e⟩
    · rw [if_neg h1]
      by_cases h2 : i = p a
      · rw [if_pos h2, if_pos ⟨a, List.mem_cons_self, h2⟩]
      · rw [if_neg h2, if_neg]
        rintro ⟨n, hn, e⟩
        rcases List.mem_cons.1 hn with rfl | hn
        · exact h2 e
        · exact h1 ⟨n, hn, e⟩

/-- The same for a fold whose step is only known, step by step, to be such an overwrite. -/
theorem foldl_overwrite_const_of {ι β α : Type} [DecidableEq ι] (step : (ι → α) → β → (ι → α)) (p : β → ι) (c : α)
    (hstep : ∀ r n, step r n = fun i' => if i' = p n then c else r i') (l : List β) (x : ι → α) (i : ι) :
    (l.foldl step x) i = if ∃ n ∈ l, i = p n then c else x i := by
  have e : step = fun r n => fun i' => if i' = p n then c else r i' := funext fun r => funext fun n => hstep r n
  rw [e]
  exact foldl_overwrite_const l p c x i

/-! ## The index table: row k holds (k, k) -/

/-- A 32-bit word made from a number below 8192 reads back, signed, as that number. -/
theorem toInt_ofNat_small (k : Nat) (hk : k < 8192) : (BitVec.ofNat 32 k).toInt = (k : Int) := by
  rw [BitVec.toInt_eq_toNat_cond, BitVec.toNat_ofNat]
  have e : k % 2 ^ 32 = k := Nat.mod_eq_of_lt (by omega)
  rw [e, if_pos (by omega)]

/-- Such a word is not negative. -/
theorem slt_zero_small (k : Nat) (hk : k < 8192) : IntOp.cmpi .slt (BitVec.ofNat 32 k) 0#32 = 0#1 := by
  show BitVec.ofBool ((BitVec.ofNat 32 k).slt 0#32) = 0#1
  rw [BitVec.slt_eq_decide, toInt_ofNat_small k hk]
  have : ¬ ((k : Int) < (0#32 : BitVec 32).toInt) := by
    rw [show (0#32 : BitVec 32).toInt = 0 from rfl]; omega
  rw [decide_eq_false this]; rfl

/-- The wrapped iota word at position k. -/
theorem wrap_word6 {F : FTy → Type} [FloatOps F] (k : Fin 8192) : val_main_v6 (F := F) (ix1 k) = BitVec.ofNat 32 k.val := by
  rw [val_main_v6_apply, val_main_v3_apply, val_main_v0_apply, val_main_v2_apply, val_main_c_apply]
  show Scalar.select (IntOp.cmpi .slt (BitVec.ofNat 32 k.val) 0#32) _ _ = _
  rw [slt_zero_small k.val k.isLt, select_zero]

/-- The same word through the second copy of the wrap. -/
theorem wrap_word11 {F : FTy → Type} [FloatOps F] (k : Fin 8192) : val_main_v11 (F := F) (ix1 k) = BitVec.ofNat 32 k.val := by
  rw [val_main_v11_apply, val_main_v8_apply, val_main_v0_apply, val_main_v7_apply, val_main_c_1_apply]
  show Scalar.select (IntOp.cmpi .slt (BitVec.ofNat 32 k.val) 0#32) _ _ = _
  rw [slt_zero_small k.val k.isLt, select_zero]

/-- The index table's two columns at row k both hold k. -/
theorem table_left {F : FTy → Type} [FloatOps F] (k : Fin 8192) :
    val_main_v14 (F := F) (ix2 k (0 : Fin 2)) = BitVec.ofNat 32 k.val := by
  unfold val_main_v14
  refine (concatenate_pair_apply_left (t := S8192x2) (s₁ := S8192x1) (s₂ := S8192x1) 1 _ _
    concatenates_S8192x1_S8192x1_S8192x2_d1 (ix2 k (0 : Fin 2)) rfl (ix2 k (0 : Fin 1)) ?_).trans ?_
  · intro b
    match b with
    | ⟨0, _⟩ => rfl
    | ⟨1, _⟩ => rfl
  · rw [val_main_v12_apply]
    exact wrap_word6 k

/-- The second column. -/
theorem table_right {F : FTy → Type} [FloatOps F] (k : Fin 8192) :
    val_main_v14 (F := F) (ix2 k (1 : Fin 2)) = BitVec.ofNat 32 k.val := by
  unfold val_main_v14
  refine (concatenate_pair_apply_right (t := S8192x2) (s₁ := S8192x1) (s₂ := S8192x1) 1 _ _
    concatenates_S8192x1_S8192x1_S8192x2_d1 (ix2 k (1 : Fin 2)) rfl rfl (ix2 k (0 : Fin 1)) ?_ ?_).trans ?_
  · intro b hb
    match b with
    | ⟨0, _⟩ => rfl
    | ⟨1, _⟩ => exact absurd rfl hb
  · rfl
  · rw [val_main_v13_apply]
    exact wrap_word11 k

/-! ## The scatter's dimension numbers at this program's shapes -/

/-- The scatter's dimension numbers: both operand axes inserted, the index vector along the table's columns. -/
abbrev D := scatter_S8192x8192_S8192x2_S8192_n_01_01_1

/-- No operand axis is a window axis: both are inserted. -/
theorem window_zero (j : S8192.Idx) (a : Fin 2) : D.window j a = 0 := by
  unfold ScatterDims.window
  rw [dif_neg]
  have h2 : a.val < 2 := a.isLt
  rcases (by omega : a.val = 0 ∨ a.val = 1) with h | h
  · obtain rfl : a = 0 := Fin.ext h
    decide
  · obtain rfl : a = 1 := Fin.ext h
    decide

/-- The start index's component on the row axis is read at column 0 of the table's row. -/
theorem start_zero (j : S8192.Idx) (idx : IVec S8192x2 32) :
    D.start j idx 0 = (idx (ix2 ⟨(j 0).val, (j 0).isLt⟩ (0 : Fin 2))).toInt := by
  unfold ScatterDims.start
  rw [dif_pos (by decide)]
  refine congrArg (fun q => (idx q).toInt) ?_
  funext b
  refine Fin.ext ?_
  match b with
  | ⟨0, _⟩ => rfl
  | ⟨1, _⟩ => rfl

/-- The component on the column axis is read at column 1. -/
theorem start_one (j : S8192.Idx) (idx : IVec S8192x2 32) :
    D.start j idx 1 = (idx (ix2 ⟨(j 0).val, (j 0).isLt⟩ (1 : Fin 2))).toInt := by
  unfold ScatterDims.start
  rw [dif_pos (by decide)]
  refine congrArg (fun q => (idx q).toInt) ?_
  funext b
  refine Fin.ext ?_
  match b with
  | ⟨0, _⟩ => rfl
  | ⟨1, _⟩ => rfl

/-- When the table's row for update j holds the number k in both columns, update j lands at (k, k). -/
theorem resultIdx_diag (j : S8192.Idx) (idx : IVec S8192x2 32) (k : Fin 8192)
    (h0 : (idx (ix2 ⟨(j 0).val, (j 0).isLt⟩ (0 : Fin 2))).toInt = (k.val : Int))
    (h1 : (idx (ix2 ⟨(j 0).val, (j 0).isLt⟩ (1 : Fin 2))).toInt = (k.val : Int)) :
    D.resultIdx? j idx = some (ix2 k k) := by
  have hk : k.val < 8192 := k.isLt
  have H : ∀ a, 0 ≤ D.start j idx a + D.window j a ∧ D.start j idx a + D.window j a < S8192x8192.size a := by
    intro a
    have h2 : a.val < 2 := a.isLt
    rcases (by omega : a.val = 0 ∨ a.val = 1) with h | h
    · obtain rfl : a = 0 := Fin.ext h
      rw [window_zero, start_zero, h0]
      show 0 ≤ (k.val : Int) + ((0 : Nat) : Int) ∧ (k.val : Int) + ((0 : Nat) : Int) < ((8192 : Nat) : Int)
      omega
    · obtain rfl : a = 1 := Fin.ext h
      rw [window_zero, start_one, h1]
      show 0 ≤ (k.val : Int) + ((0 : Nat) : Int) ∧ (k.val : Int) + ((0 : Nat) : Int) < ((8192 : Nat) : Int)
      omega
  unfold ScatterDims.resultIdx?
  rw [dif_pos H]
  refine congrArg some ?_
  funext a
  refine Fin.ext ?_
  have h2 : a.val < 2 := a.isLt
  rcases (by omega : a.val = 0 ∨ a.val = 1) with h | h
  · obtain rfl : a = 0 := Fin.ext h
    show (D.start j idx 0 + D.window j 0).toNat = k.val
    rw [window_zero, start_zero, h0]
    omega
  · obtain rfl : a = 1 := Fin.ext h
    show (D.start j idx 1 + D.window j 1).toNat = k.val
    rw [window_zero, start_one, h1]
    omega

/-! ## The scatter at an index -/

/-- The unit entry written on the diagonal. -/
abbrev oneF32 : EReal := Ideal.ofBits .f32 0x3F800000#32

/-- The row (and column) update number n writes to. -/
abbrev kOf (n : Fin S8192.numel) : Fin 8192 := ⟨((S8192.rowMajor.symm n) 0).val, ((S8192.rowMajor.symm n) 0).isLt⟩

/-- The scatter read at an index: the diagonal replaced by the unit entry. -/
theorem scatter_apply (x : (⟨S8192x8192, .f32⟩ : BufTy).Contents (Elt Ideal)) (r c : Fin 8192) :
    val_main_v15 (F := Ideal) x (ix2 r c) = fixedAt oneF32 x r c := by
  unfold val_main_v15 Host.scatter
  refine (foldl_overwrite_const_of _ (fun n => ix2 (kOf n) (kOf n)) oneF32 ?_ _ _ _).trans ?_
  · intro r' n
    rw [resultIdx_diag (S8192.rowMajor.symm n) (val_main_v14 (F := Ideal)) (kOf n)
      ((congrArg BitVec.toInt (table_left (kOf n))).trans (toInt_ofNat_small _ (kOf n).isLt))
      ((congrArg BitVec.toInt (table_right (kOf n))).trans (toInt_ofNat_small _ (kOf n).isLt))]
    funext i'
    show (if i' = ix2 (kOf n) (kOf n) then val_main_v1 (F := Ideal) (S8192.rowMajor.symm n) else r' i') = _
    rw [val_main_v1_apply, val_main_cst_apply]
    rfl
  · unfold fixedAt
    by_cases h : r = c
    · subst h
      rw [if_pos rfl, if_pos]
      refine ⟨S8192.rowMajor (ix1 r), List.mem_finRange _, ?_⟩
      have e : kOf (S8192.rowMajor (ix1 r)) = r := by
        refine Fin.ext ?_
        show ((S8192.rowMajor.symm (S8192.rowMajor (ix1 r))) 0).val = r.val
        rw [Equiv.symm_apply_apply]
      rw [e]
    · rw [if_neg h, if_neg]
      rintro ⟨n, _, e⟩
      exact h ((show r = kOf n from congrFun e 0).trans (show c = kOf n from congrFun e 1).symm)

end Cert.SelfLoop.Ref

end
-- ==== Proof.RefIsG.lean ====
/-
  The reference computes `G`.

  After the self-loop step the reference sums each row (from zero), takes the reciprocal square root of the row
  sums, and multiplies entry (r, c) of the fixed matrix by the value at r and then by the value at c. Read at an index,
  with the self-loop step read as `fixedAt`, the row sum is `deg`, and the product is `entry`, in the same order of
  multiplication.
-/
import proofs.«125021_j2216203125145_2_alg».proof.Proof.RefScatter

noncomputable section

namespace Cert.SelfLoop.Ref

open Idealize.ShloMosaic Idealize.ShloMosaic.ValueIdx
open Cert.ReferenceIdeal Cert.ReferenceIdeal.Gen Cert.ReferenceIdeal.Read

/-- The index of row r, column k, as the row sum spells it. -/
theorem idx16_eq (r k : Fin 8192) : idx_main_v16 (ix1 r) k = ix2 r k := by
  funext a
  match a with
  | ⟨0, _⟩ => rfl
  | ⟨1, _⟩ => rfl

/-- The reference's row sum at row r is the degree of the fixed matrix. -/
theorem rowsum_apply (x : (⟨S8192x8192, .f32⟩ : BufTy).Contents (Elt Ideal)) (r : Fin 8192) :
    val_main_v16 (F := Ideal) x (ix1 r) = deg oneF32 x r := by
  rw [val_main_v16_apply, val_main_cst_3_apply]
  show Ideal.ofBits .f32 0x00000000#32 + _ = _
  rw [Ideal.ofBits_zero_f32, zero_add]
  unfold deg
  refine Finset.sum_congr rfl fun k _ => ?_
  rw [idx16_eq]
  exact scatter_apply x r k

/-- Its reciprocal square root. -/
theorem rsqrt_apply (x : (⟨S8192x8192, .f32⟩ : BufTy).Contents (Elt Ideal)) (r : Fin 8192) :
    val_main_v17 (F := Ideal) x (ix1 r) = Ideal.rsqrt (deg oneF32 x r) := by
  rw [val_main_v17_apply, rowsum_apply]
  rfl

/-- The two broadcasts of the row factor read it at the row … -/
theorem idx_row_eq (r c : Fin 8192) : idx_main_v18 (idx_main_v19 (ix2 r c)) = ix1 r := by
  funext a
  match a with
  | ⟨0, _⟩ => rfl

/-- … and those of the column factor at the column. -/
theorem idx_col_eq (r c : Fin 8192) : idx_main_v21 (idx_main_v22 (ix2 r c)) = ix1 c := by
  funext a
  match a with
  | ⟨0, _⟩ => rfl

/-- The reference computes the symmetric normalisation of the self-loop-fixed matrix. -/
theorem ref_is_G (x : (⟨Cert.ReferenceIdeal.S8192x8192, .f32⟩ : BufTy).Contents (Elt Ideal)) :
    Cert.ReferenceIdeal.Read.val_main_v23 (F := Ideal) x = Cert.SelfLoop.G (Ideal.ofBits .f32 0x3F800000#32) x := by
  funext j
  obtain ⟨r, c, rfl⟩ : ∃ r c : Fin 8192, j = ix2 r c := ⟨j 0, j 1, eq_ix2 j⟩
  rw [G_ix2, val_main_v23_apply, val_main_v20_apply, val_main_v19_apply, val_main_v18_apply, val_main_v22_apply,
    val_main_v21_apply, idx_row_eq, idx_col_eq, rsqrt_apply, rsqrt_apply, scatter_apply]
  rfl

end Cert.SelfLoop.Ref

end
-- ==== Proof.lean ====
/-
  The certificate: a kernel that adds self-loops to an 8192 × 8192 matrix and normalises it symmetrically,
  `D^(-1/2) (A with unit diagonal) D^(-1/2)`, against the same computation written with array operations.

  The kernel works in two launches. The first sums each row and corrects the sum for the diagonal entry being replaced by
  one — row sum, plus one minus the diagonal entry, the latter obtained as the sum of the row masked to its diagonal — and
  stores the inverse square roots of these degrees as a column. The host re-lays the column as a row. The second launch
  multiplies each tile of the input by its piece of the column and its piece of the row, and on the tiles that meet the
  diagonal it first replaces the diagonal entries by one. The reference replaces the diagonal by a scatter of ones, sums the
  rows, takes inverse square roots and multiplies by the two broadcasts.
  Over the extended reals both results are one function `G` of the input (Proof/Spec.lean): the reference's is `G` by reading
  its operations at an index (Proof/RefIsG.lean); the kernel's is `G` because each launch's output array is a whole-array
  function of its input arrays (Proof/KI/Value0.lean, Arr1.lean), chained through the run (Proof/KI/Run.lean, Chain.lean),
  and because on FINITE entries the corrected row sum is the sum of the corrected row (Proof/DegLaw.lean) — the one place the
  precondition is used (Proof/FiniteIn.lean reads it). The products are taken in the same order on both sides and the
  inverse square root is the same function of the same degree, whatever its sign, so nothing else is needed.
  The three frames: each kernel program runs to the end with every buffer's final contents named (`run_all`), so its input
  ends as launched; the reference's frame is its generated run with the result dropped. The idealization rewrote nothing,
  so its soundness conjunct is trivial.
-/
import proofs.«125021_j2216203125145_2_alg».proof.Defs
import proofs.«125021_j2216203125145_2_alg».proof.Proof.Gen.Kernel
import proofs.«125021_j2216203125145_2_alg».proof.Proof.Gen.Kernel.Skeleton
import proofs.«125021_j2216203125145_2_alg».proof.Proof.Gen.Kernel.Launch
import proofs.«125021_j2216203125145_2_alg».proof.Proof.Gen.Kernel.Regions
import proofs.«125021_j2216203125145_2_alg».proof.Proof.Gen.Kernel.Points
import proofs.«125021_j2216203125145_2_alg».proof.Proof.Gen.KernelIdeal
import proofs.«125021_j2216203125145_2_alg».proof.Proof.Gen.KernelIdeal.Skeleton
import proofs.«125021_j2216203125145_2_alg».proof.Proof.Gen.KernelIdeal.Launch
import proofs.«125021_j2216203125145_2_alg».proof.Proof.Gen.KernelIdeal.Regions
import proofs.«125021_j2216203125145_2_alg».proof.Proof.Gen.KernelIdeal.Points
import proofs.«125021_j2216203125145_2_alg».proof.Proof.Gen.ReferenceIdeal
import proofs.«125021_j2216203125145_2_alg».proof.Proof.Gen.Pre_finite_inputs
import proofs.«125021_j2216203125145_2_alg».proof.Proof.Gen.ReferenceIdeal.Run
import proofs.«125021_j2216203125145_2_alg».proof.Proof.Gen.ReferenceIdeal.Read
import proofs.«125021_j2216203125145_2_alg».proof.Proof.K.Run
import proofs.«125021_j2216203125145_2_alg».proof.Proof.K.Body0
import proofs.«125021_j2216203125145_2_alg».proof.Proof.K.Body1
import proofs.«125021_j2216203125145_2_alg».proof.Proof.KI.Run
import proofs.«125021_j2216203125145_2_alg».proof.Proof.KI.Body0
import proofs.«125021_j2216203125145_2_alg».proof.Proof.KI.Body1
import proofs.«125021_j2216203125145_2_alg».proof.Proof.KI.Value0
import proofs.«125021_j2216203125145_2_alg».proof.Proof.KI.Arr1
import proofs.«125021_j2216203125145_2_alg».proof.Proof.KI.Chain
import proofs.«125021_j2216203125145_2_alg».proof.Proof.RefIsG
import proofs.«125021_j2216203125145_2_alg».proof.Proof.FiniteIn
import Idealize.ShloMosaic.Adequacy
import Idealize.ShloMosaic.Init

noncomputable section

namespace Cert.Proof

open Idealize.ShloMosaic Idealize.SL.Sem

/-- The word-level kernel program runs and leaves its input as launched. -/
theorem frame_kernel : Cert.frame_Kernel := fun m ρ _ =>
  (θ_run Cert.Kernel.defs _ _).mono
    (fun _ h c => (h c _ (Cert.Kernel.Hand.mem_uc Cert.Kernel.main_arg0 (by decide))).trans (Cert.Kernel.Hand.W3_main_arg0 m ρ c))
    (Cert.Kernel.Hand.run_all (F := Bits) m ρ Cert.Kernel.Hand.body_obligation0 Cert.Kernel.Hand.body_obligation1)

/-- So does the idealized kernel program. -/
theorem frame_kernelIdeal : Cert.frame_KernelIdeal := fun m ρ _ =>
  (θ_run Cert.KernelIdeal.defs _ _).mono
    (fun _ h c => (h c _ (Cert.KernelIdeal.Hand.mem_uc Cert.KernelIdeal.main_arg0 (by decide))).trans (Cert.KernelIdeal.Hand.W3_main_arg0 m ρ c))
    (Cert.KernelIdeal.Hand.run_all (F := Ideal) m ρ Cert.KernelIdeal.Hand.body_obligation0 Cert.KernelIdeal.Hand.body_obligation1)

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the input, both idealized programs end with the symmetric normalisation `G` of the input:
    the kernel's two launches chained through the run, on the finite input the precondition gives; the reference's
    operations read at an index. -/
theorem algebraic : Cert.algebraic_KernelIdeal_ReferenceIdeal := by
  intro m ρ m' ρ' hpre hagree
  refine ⟨fun c => Cert.SelfLoop.G Cert.KernelIdeal.Hand.one (m ((c.tc : Thread Cert.KernelIdeal.nD Cert.KernelIdeal.τ).loc Cert.KernelIdeal.main_arg0)), ?_, ?_⟩
  · exact (θ_run Cert.KernelIdeal.defs _ _).mono
      (fun _ h c => ⟨(h c _ (Cert.KernelIdeal.Hand.mem_uc Cert.KernelIdeal.main_v2 (by decide))).trans
          (Cert.KernelIdeal.Hand.result_eq m ρ Cert.KernelIdeal.Hand.arrAt0 Cert.KernelIdeal.Hand.arrAt1 c (Cert.SelfLoop.finite_of_pre _ (hpre c))),
        (h c _ (Cert.KernelIdeal.Hand.mem_uc Cert.KernelIdeal.main_arg0 (by decide))).trans (Cert.KernelIdeal.Hand.W3_main_arg0 m ρ c)⟩)
      (Cert.KernelIdeal.Hand.run_all (F := Ideal) m ρ Cert.KernelIdeal.Hand.body_obligation0 Cert.KernelIdeal.Hand.body_obligation1)
  · refine (θ_run Cert.ReferenceIdeal.defs _ _).mono (fun _ h c => ⟨?_, (h c).2⟩) (Cert.ReferenceIdeal.Value.run (F := Ideal) m' ρ')
    rw [(h c).1, Cert.ReferenceIdeal.Read.val_main_v23_eq, Cert.SelfLoop.Ref.ref_is_G, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
